-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S1 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S1 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩
abbrev S5000 : Shape := ⟨1, ![5000]⟩
abbrev S5000x1 : Shape := ⟨2, ![5000, 1]⟩

abbrev nBuf : Space → Nat
  | .hbm => 103
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S1x1, .f32⟩
  | .hbm, ⟨78, _⟩ => ⟨S1x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1x128, .f32⟩
  | .hbm, ⟨99, _⟩ => ⟨S1x1, .f32⟩
  | .hbm, ⟨100, _⟩ => ⟨S1x128, .f32⟩
  | .hbm, ⟨101, _⟩ => ⟨S1x128, .f32⟩
  | .hbm, ⟨102, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x1, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x1, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩

abbrev nBuf : Space → Nat
  | .hbm => 220
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S1, .f32⟩
  | 8 => ⟨S128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .i1⟩
  | 82 => ⟨S1x1, .f32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S100000x128, .f32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x128, .f32⟩
  | 102 => ⟨S100000x128, .f32⟩
  | 103 => ⟨S_, .f32⟩
  | 104 => ⟨S100000x1, .f32⟩
  | 105 => ⟨S100000x1, .f32⟩
  | 106 => ⟨S100000x1, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x1600000, .i32⟩
  | 116 => ⟨S1600000, .i32⟩
  | 117 => ⟨S1x1600000, .i32⟩
  | 118 => ⟨S1600000, .i32⟩
  | 119 => ⟨S100000, .i32⟩
  | 120 => ⟨S1700000, .i32⟩
  | 121 => ⟨S1700000, .i32⟩
  | 122 => ⟨S_, .f32⟩
  | 123 => ⟨S100000, .f32⟩
  | 124 => ⟨S1700000, .f32⟩
  | 125 => ⟨S_, .f32⟩
  | 126 => ⟨S100000, .f32⟩
  | 127 => ⟨S1700000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S_, .f32⟩
  | 5 => ⟨S_, .f32⟩
  | 6 => ⟨S100000, .f32⟩
  | 7 => ⟨S100000, .f32⟩
  | 8 => ⟨S_, .f32⟩
  | 9 => ⟨S100000, .f32⟩
  | 10 => ⟨S100000, .i1⟩
  | 11 => ⟨S100000, .f32⟩
  | 12 => ⟨S_, .f32⟩
  | 13 => ⟨S_, .f32⟩
  | 14 => ⟨S100000, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000, .f32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S100000x128, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x128, .f32⟩
  | 46 => ⟨S1700000x1, .f32⟩
  | 47 => ⟨S1700000x128, .f32⟩
  | 48 => ⟨S1700000x128, .f32⟩
  | 49 => ⟨S_, .f32⟩
  | 50 => ⟨S100000x128, .f32⟩
  | 51 => ⟨S1700000x1, .i32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .i1⟩
  | 59 => ⟨S1x1, .f32⟩
  | 60 => ⟨S100000x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S_, .f32⟩
  | 81 => ⟨S100000x1, .f32⟩
  | 82 => ⟨S100000x1, .f32⟩
  | 83 => ⟨S100000x1, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_call3_v0 : Ref sig .tc := ⟨.hbm, 133, rfl⟩
abbrev main_call3_v1 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_call4_v0 : Ref sig .tc := ⟨.hbm, 141, rfl⟩
abbrev main_call4_v1 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_25 : Ref sig .tc := ⟨.hbm, 154, rfl⟩
abbrev main_v109 : Ref sig .tc := ⟨.hbm, 155, rfl⟩
abbrev main_v110 : Ref sig .tc := ⟨.hbm, 156, rfl⟩
abbrev main_c_26 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_27 : Ref sig .tc := ⟨.hbm, 165, rfl⟩
abbrev main_v118 : Ref sig .tc := ⟨.hbm, 166, rfl⟩
abbrev main_v119 : Ref sig .tc := ⟨.hbm, 167, rfl⟩
abbrev main_c_28 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_29 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_30 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_31 : Ref sig .tc := ⟨.hbm, 191, rfl⟩
abbrev main_v140 : Ref sig .tc := ⟨.hbm, 192, rfl⟩
abbrev main_v141 : Ref sig .tc := ⟨.hbm, 193, rfl⟩
abbrev main_cst_32 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_33 : Ref sig .tc := ⟨.hbm, 200, rfl⟩
abbrev main_v147 : Ref sig .tc := ⟨.hbm, 201, rfl⟩
abbrev main_v148 : Ref sig .tc := ⟨.hbm, 202, rfl⟩
abbrev main_cst_34 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_35 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The kernel program's run with its result named.

  @main is eleven segments: five stretches of host operations (the graph normalisation), the first matrix product,
  a stretch (gather, scale, scatter-add and the row parameters' reshapes), the first normalisation kernel, the second
  matrix product, a stretch, the second normalisation kernel.  The buffer contents at every segment boundary are the
  fold `W0 … W11` of the generated frame certificate: a stretch's operations applied in order, a region's arrays at
  what its write-backs leave.  Every weakly fair execution terminates without a fault, and the final state holds
  every unscoped buffer at `W11`; in particular the result buffer, and the arguments as launched.
-/
import proofs.«141909_j79422535238248_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W11` and the argument arrays end as launched. -/
theorem run_result : θ_run defs (onTc (τ := τ) (main (F := F))) ⟨m, fun _ => 0, ρ⟩ (fun r => ∀ c : Dev nD,
      r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Run

end
-- ==== Proof.HostChain.lean ====
/-
  The graph aggregation carried as one function, and the second layer's normalisation read as the first's.

  `agg h src dst nrm`: the rows of the [100000, 128] array h are gathered at the 1700000 source nodes (a negative
  index wrapped by the node count), each gathered row is scaled by its edge's normalised weight, and the scaled rows
  are scatter-added into a zero [100000, 128] array at the destination nodes.  Both layers of the reference apply it:
  the first to the product of the input with the first weight matrix, the second to the product of the first
  layer's output with the second.  The edge lists and the normalised weights depend only on the graph, and the
  reference computes them once per layer by the same operations: the second computation is the first.
-/
import proofs.«141909_j79422535238248_1_alg».proof.Proof.RefReadP

noncomputable section

namespace Cert.ReferenceIdeal.Chain

open Cert.ReferenceIdeal Cert.ReferenceIdeal.Gen Cert.ReferenceIdeal.Read Idealize.ShloMosaic

variable {F : FTy → Type} [FloatOps F]

/-- Gather the rows of `h` at the (wrapped) sources, scale by the edge weights, scatter-add at the destinations. -/
def agg (h : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf
      (Host.gather gather_S100000x128_S1700000x1_S1700000x128_1_0_n_n_0_1_1128 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 nrm)))

variable (x0 : (⟨S100000x128, .f32⟩ : BufTy).Contents (Elt F)) (x1 : (⟨S2x1600000, .i32⟩ : BufTy).Contents (Elt F))
  (x2 : (⟨S1600000, .f32⟩ : BufTy).Contents (Elt F)) (x3 : (⟨S128x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F)) (x7 : (⟨S1, .f32⟩ : BufTy).Contents (Elt F))
  (x8 x9 : (⟨S128, .f32⟩ : BufTy).Contents (Elt F))

/-- The first layer's aggregate is `agg` of the first product. -/
theorem v48_eq : val_main_v48 (F := F) x0 x1 x2 x3
    = agg (val_main_v35 (F := F) x0 x3) (val_main_v5 (F := F) x1) (val_main_v6 (F := F) x1) (val_main_v34 (F := F) x1 x2) := rfl

/-- The second computation of the source list is the first. -/
theorem v87_eq : val_main_v87 (F := F) x1 = val_main_v5 (F := F) x1 := rfl

/-- The second computation of the destination list is the first. -/
theorem v88_eq : val_main_v88 (F := F) x1 = val_main_v6 (F := F) x1 := rfl

/-- The second computation of the normalised edge weights is the first. -/
theorem v116_eq : val_main_v116 (F := F) x1 x2 = val_main_v34 (F := F) x1 x2 := rfl

/-- The second layer's aggregate is `agg` of the second product, over the first layer's edge lists and weights. -/
theorem v130_eq : val_main_v130 (F := F) x0 x1 x2 x3 x4 x5 x7 x8 x9
    = agg (val_main_v117 (F := F) x0 x1 x2 x3 x4 x5 x7 x8 x9) (val_main_v5 (F := F) x1) (val_main_v6 (F := F) x1)
        (val_main_v34 (F := F) x1 x2) := by
  rw [← v87_eq, ← v88_eq, ← v116_eq]; rfl

end Cert.ReferenceIdeal.Chain

end
-- ==== Proof.KernelStretch.lean ====
/-
  The kernel program's stretches of host operations, read over any contents `V` they start from.

  The five stretches before the first region compute, from the edge index (argument 1) and the edge weights
  (argument 2), the source and destination lists with the self-loops appended and the symmetric normalised edge
  weights — by the same operations as the reference's first 58, so what they leave in those three buffers is the
  reference's stage of the same name at the contents of arguments 1 and 2.  The stretch before the second region and
  the one before the fourth are the reference's graph aggregation `agg` of the product just written, over those
  lists and weights, and the row parameters reshaped to one-row arrays.  No stretch writes an argument, nor (after
  the first five) the lists and weights.
-/
import proofs.«141909_j79422535238248_1_alg».proof.Proof.Gen.KernelIdeal.Launch
import proofs.«141909_j79422535238248_1_alg».proof.Proof.HostChain
import Idealize.ShloMosaic.Lib.Tactic

noncomputable section

namespace Cert.KernelIdeal.Stretch

open Cert.KernelIdeal Cert.KernelIdeal.Gen
open Idealize.ShloMosaic Idealize.ShloMosaic.TcCoe Idealize.SL.Sem Idealize.ShloMosaic.StableHlo Idealize.ShloMosaic.Tactic

variable {F : FTy → Type} [FloatOps F]

/-- The contents after the five stretches before the first region. -/
abbrev pro (V : Valuation τ sig (Elt F)) : Valuation τ sig (Elt F) :=
  after hostOps0_4 (after hostOps0_3 (after hostOps0_2 (after hostOps0_1 (after hostOps0 V))))

variable (V : Valuation τ sig (Elt F))

/-- The source list. -/
theorem pro_v5 : pro V (Proc.devRef .tc main_v5) = Cert.ReferenceIdeal.Read.val_main_v5 (F := F) (V (Proc.devRef .tc main_arg1)) := by
  sl_kernel_rfl

/-- The destination list. -/
theorem pro_v6 : pro V (Proc.devRef .tc main_v6) = Cert.ReferenceIdeal.Read.val_main_v6 (F := F) (V (Proc.devRef .tc main_arg1)) := by
  sl_kernel_rfl

/-- The normalised edge weights. -/
theorem pro_v34 : pro V (Proc.devRef .tc main_v34)
    = Cert.ReferenceIdeal.Read.val_main_v34 (F := F) (V (Proc.devRef .tc main_arg1)) (V (Proc.devRef .tc main_arg2)) := by
  sl_kernel_rfl

theorem pro_arg0 : pro V (Proc.devRef .tc main_arg0) = V (Proc.devRef .tc main_arg0) := by sl_kernel_rfl
theorem pro_arg3 : pro V (Proc.devRef .tc main_arg3) = V (Proc.devRef .tc main_arg3) := by sl_kernel_rfl
theorem pro_arg4 : pro V (Proc.devRef .tc main_arg4) = V (Proc.devRef .tc main_arg4) := by sl_kernel_rfl
theorem pro_arg5 : pro V (Proc.devRef .tc main_arg5) = V (Proc.devRef .tc main_arg5) := by sl_kernel_rfl
theorem pro_arg6 : pro V (Proc.devRef .tc main_arg6) = V (Proc.devRef .tc main_arg6) := by sl_kernel_rfl
theorem pro_arg7 : pro V (Proc.devRef .tc main_arg7) = V (Proc.devRef .tc main_arg7) := by sl_kernel_rfl
theorem pro_arg8 : pro V (Proc.devRef .tc main_arg8) = V (Proc.devRef .tc main_arg8) := by sl_kernel_rfl
theorem pro_arg9 : pro V (Proc.devRef .tc main_arg9) = V (Proc.devRef .tc main_arg9) := by sl_kernel_rfl

/-! ## The stretch before the second region -/

theorem mid_v48 : after hostOps1 V (Proc.devRef .tc main_v48)
    = Cert.ReferenceIdeal.Chain.agg (F := F) (V (Proc.devRef .tc main_v35)) (V (Proc.devRef .tc main_v5)) (V (Proc.devRef .tc main_v6))
        (V (Proc.devRef .tc main_v34)) := by
  sl_kernel_rfl

theorem mid_v49 : after hostOps1 V (Proc.devRef .tc main_v49) = shapeCast ⟨2, ![1, 128]⟩ (V (Proc.devRef .tc main_arg4)) shapeCasts_S128_S1x128 := by
  sl_kernel_rfl
theorem mid_v50 : after hostOps1 V (Proc.devRef .tc main_v50) = shapeCast ⟨2, ![1, 1]⟩ (V (Proc.devRef .tc main_arg7)) shapeCasts_S1_S1x1 := by
  sl_kernel_rfl
theorem mid_v51 : after hostOps1 V (Proc.devRef .tc main_v51) = shapeCast ⟨2, ![1, 128]⟩ (V (Proc.devRef .tc main_arg8)) shapeCasts_S128_S1x128 := by
  sl_kernel_rfl
theorem mid_v52 : after hostOps1 V (Proc.devRef .tc main_v52) = shapeCast ⟨2, ![1, 128]⟩ (V (Proc.devRef .tc main_arg9)) shapeCasts_S128_S1x128 := by
  sl_kernel_rfl

theorem mid_main_v5 : after hostOps1 V (Proc.devRef .tc main_v5) = V (Proc.devRef .tc main_v5) := by sl_kernel_rfl
theorem mid_main_v6 : after hostOps1 V (Proc.devRef .tc main_v6) = V (Proc.devRef .tc main_v6) := by sl_kernel_rfl
theorem mid_main_v34 : after hostOps1 V (Proc.devRef .tc main_v34) = V (Proc.devRef .tc main_v34) := by sl_kernel_rfl
theorem mid_main_arg5 : after hostOps1 V (Proc.devRef .tc main_arg5) = V (Proc.devRef .tc main_arg5) := by sl_kernel_rfl
theorem mid_main_arg6 : after hostOps1 V (Proc.devRef .tc main_arg6) = V (Proc.devRef .tc main_arg6) := by sl_kernel_rfl
theorem mid_main_arg7 : after hostOps1 V (Proc.devRef .tc main_arg7) = V (Proc.devRef .tc main_arg7) := by sl_kernel_rfl
theorem mid_main_arg8 : after hostOps1 V (Proc.devRef .tc main_arg8) = V (Proc.devRef .tc main_arg8) := by sl_kernel_rfl
theorem mid_main_arg9 : after hostOps1 V (Proc.devRef .tc main_arg9) = V (Proc.devRef .tc main_arg9) := by sl_kernel_rfl

/-! ## The stretch before the fourth region -/

theorem last_v67 : after hostOps3 V (Proc.devRef .tc main_v67)
    = Cert.ReferenceIdeal.Chain.agg (F := F) (V (Proc.devRef .tc main_v54)) (V (Proc.devRef .tc main_v5)) (V (Proc.devRef .tc main_v6))
        (V (Proc.devRef .tc main_v34)) := by
  sl_kernel_rfl

theorem last_v68 : after hostOps3 V (Proc.devRef .tc main_v68) = shapeCast ⟨2, ![1, 128]⟩ (V (Proc.devRef .tc main_arg6)) shapeCasts_S128_S1x128 := by
  sl_kernel_rfl
theorem last_v69 : after hostOps3 V (Proc.devRef .tc main_v69) = shapeCast ⟨2, ![1, 1]⟩ (V (Proc.devRef .tc main_arg7)) shapeCasts_S1_S1x1 := by
  sl_kernel_rfl
theorem last_v70 : after hostOps3 V (Proc.devRef .tc main_v70) = shapeCast ⟨2, ![1, 128]⟩ (V (Proc.devRef .tc main_arg8)) shapeCasts_S128_S1x128 := by
  sl_kernel_rfl
theorem last_v71 : after hostOps3 V (Proc.devRef .tc main_v71) = shapeCast ⟨2, ![1, 128]⟩ (V (Proc.devRef .tc main_arg9)) shapeCasts_S128_S1x128 := by
  sl_kernel_rfl

end Cert.KernelIdeal.Stretch

end
-- ==== Proof.Spec.lean ====
/-
  The layer's two dense pieces as functions of whole arrays, index by index, on the extended reals.

  `dense X W` is the matrix product of a [100000, 128] array with a [128, 128] array: entry (p, q) is the
  sum over k of X (p, k) · W (k, q).

  `post A b a g β` is what follows the aggregation of one graph-convolution block, row by row: the bias row
  is added, the parametric rectifier keeps h where h ≥ 0 and scales it by the shared slope a elsewhere, and the
  row is normalised over its 128 lanes: μ the lane mean, σ² the lane mean of (h - μ)², the result
  (h - μ) · (σ² + ε)^(-1/2) · g + β, with both means taken as quotients by 128 and ε the word 0x3727C5AC.
  The bias, scale and shift rows are [1, 128] arrays and the slope a [1, 1] array, as the kernel receives
  them.
-/
import Idealize.ShloMosaic.PureOps.Ideal
import Idealize.ShloMosaic.Lib.ValueIdx

noncomputable section

namespace Cert.Spec

open Idealize.ShloMosaic Idealize.ShloMosaic.ValueIdx

abbrev Nodes : Shape := ⟨2, ![100000, 128]⟩
abbrev Weights : Shape := ⟨2, ![128, 128]⟩
abbrev Row : Shape := ⟨2, ![1, 128]⟩
abbrev Cell : Shape := ⟨2, ![1, 1]⟩

/-- Entry (p, q) of the product X · W. -/
def denseAt (X : Nodes.Idx → EReal) (W : Weights.Idx → EReal) (p : Fin 100000) (q : Fin 128) : EReal :=
  ∑ k : Fin 128, X (ix2 p k) * W (ix2 k q)

/-- The product X · W as a whole array. -/
def dense (X : Nodes.Idx → EReal) (W : Weights.Idx → EReal) : Nodes.Idx → EReal :=
  fun i => denseAt X W (i 0) (i 1)

/-- One entry after the bias and the parametric rectifier. -/
def act (A : Nodes.Idx → EReal) (b : Row.Idx → EReal) (a : Cell.Idx → EReal) (p : Fin 100000) (q : Fin 128) : EReal :=
  Scalar.select (Ideal.cmp .oge (A (ix2 p q) + b (ix2 0 q)) (Ideal.ofBits .f32 0x00000000#32))
    (A (ix2 p q) + b (ix2 0 q)) (a (ix2 0 0) * (A (ix2 p q) + b (ix2 0 q)))

/-- The lane mean of row p of the activated array. -/
def mean (A : Nodes.Idx → EReal) (b : Row.Idx → EReal) (a : Cell.Idx → EReal) (p : Fin 100000) : EReal :=
  Ideal.div (∑ k : Fin 128, act A b a p k) (Ideal.ofBits .f32 0x43000000#32)

/-- The lane mean of the squared deviations of row p. -/
def var (A : Nodes.Idx → EReal) (b : Row.Idx → EReal) (a : Cell.Idx → EReal) (p : Fin 100000) : EReal :=
  Ideal.div (∑ k : Fin 128, (act A b a p k - mean A b a p) * (act A b a p k - mean A b a p)) (Ideal.ofBits .f32 0x43000000#32)

/-- Entry (p, q) of the normalised block. -/
def postAt (A : Nodes.Idx → EReal) (b : Row.Idx → EReal) (a : Cell.Idx → EReal) (g β : Row.Idx → EReal)
    (p : Fin 100000) (q : Fin 128) : EReal :=
  (act A b a p q - mean A b a p) * Ideal.rsqrt (var A b a p + Ideal.ofBits .f32 0x3727C5AC#32) * g (ix2 0 q) + β (ix2 0 q)

/-- The normalised block as a whole array. -/
def post (A : Nodes.Idx → EReal) (b : Row.Idx → EReal) (a : Cell.Idx → EReal) (g β : Row.Idx → EReal) : Nodes.Idx → EReal :=
  fun i => postAt A b a g β (i 0) (i 1)

theorem dense_ix2 (X : Nodes.Idx → EReal) (W : Weights.Idx → EReal) (p : Fin 100000) (q : Fin 128) :
    dense X W (ix2 p q) = denseAt X W p q := rfl

theorem post_ix2 (A : Nodes.Idx → EReal) (b : Row.Idx → EReal) (a : Cell.Idx → EReal) (g β : Row.Idx → EReal)
    (p : Fin 100000) (q : Fin 128) : post A b a g β (ix2 p q) = postAt A b a g β p q := rfl

end Cert.Spec

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.MatmulEntry.lean ====
/-
  The row-tiled product's body at one entry of its output block.

  The body narrows both loaded blocks to a shorter format, multiplies the [5000, 128] block by the [128, 128]
  weights into an accumulator that starts at zero, and stores the product. On the extended reals a change of format
  is the identity, so entry (r, q) of what is stored is the sum over k of x (r, k) · w (k, q). The second layer's
  body first recasts its block to the shape it already has, which changes nothing.

  When row r of the left block is row p of a [100000, 128] array X and the right block is the weights W, that entry
  is entry (p, q) of the product X · W.
-/
import proofs.«141909_j79422535238248_1_alg».proof.Proof.Gen.KernelIdeal.Skeleton
import proofs.«141909_j79422535238248_1_alg».proof.Proof.Spec
import proofs.«141909_j79422535238248_1_alg».proof.Proof.LibSoftplus
import Idealize.ShloMosaic.Lib.Pipeline.Value
import Idealize.ShloMosaic.Lib.ValueIdx

noncomputable section

open scoped BigOperators

namespace Cert.KernelIdeal.RegionValue

open Idealize.ShloMosaic Idealize.ShloMosaic.ValueIdx Cert.KernelIdeal Cert.KernelIdeal.Gen

/-- The zero offsets of a whole-block access, as the constant function. -/
theorem zeroOffsets : (![0, 0] : Fin 2 → Nat) = fun _ => 0 := funext fun a => by fin_cases a <;> rfl

/-- The body's dimension numbers are the plain ones: contract the left operand's columns with the right operand's rows. -/
theorem dot_is_plain : dot_S5000x128_S128x128_S5000x128_1_0_0_1_n_n = DotDims.plain 5000 128 128 := rfl

/-- Entry (r, q) of the first layer's stored block: the sum over k of x (r, k) · w (k, q). -/
theorem matmulPayload0_apply (x0 : Vec Ideal S5000x128 .f32) (x1 : Vec Ideal S128x128 .f32) (r : Fin 5000) (q : Fin 128) :
    Gen.k0_pay1 (F := Ideal) x0 x1 (ix2 r q) = ∑ k : Fin 128, x0 (ix2 r k) * x1 (ix2 k q) := by
  unfold Gen.k0_pay1
  exact Cert.Lib.Softplus.matmul0_plain_apply (R := 5000) (K := 128) (N := 128)
    dot_S5000x128_S128x128_S5000x128_1_0_0_1_n_n dot_is_plain none _ _ r q

/-- Entry (r, q) of the second layer's stored block: the same sum, the identity recast dropped. -/
theorem matmulPayload2_apply (x0 : Vec Ideal S5000x128 .f32) (x1 : Vec Ideal S128x128 .f32) (r : Fin 5000) (q : Fin 128) :
    Gen.k2_pay1 (F := Ideal) x0 x1 (ix2 r q) = ∑ k : Fin 128, x0 (ix2 r k) * x1 (ix2 k q) := by
  unfold Gen.k2_pay1
  rw [shapeCast_self]
  exact Cert.Lib.Softplus.matmul0_plain_apply (R := 5000) (K := 128) (N := 128)
    dot_S5000x128_S128x128_S5000x128_1_0_0_1_n_n dot_is_plain none _ _ r q

/-- First layer: if row r of the left block is row p of X and column q of the right block is column q of W, the stored
    entry (r, q) is entry (p, q) of X · W. -/
theorem matmulPayload0_entry (x0 : Vec Ideal S5000x128 .f32) (x1 : Vec Ideal S128x128 .f32)
    (X : Cert.Spec.Nodes.Idx → EReal) (W : Cert.Spec.Weights.Idx → EReal) (p : Fin 100000) (r : Fin 5000) (q : Fin 128)
    (hx0 : ∀ k : Fin 128, x0 (ix2 r k) = X (ix2 p k)) (hx1 : ∀ k : Fin 128, x1 (ix2 k q) = W (ix2 k q)) :
    Gen.k0_pay1 (F := Ideal) x0 x1 (ix2 r q) = Cert.Spec.denseAt X W p q := by
  rw [matmulPayload0_apply]
  unfold Cert.Spec.denseAt
  exact Finset.sum_congr rfl fun k _ => by rw [hx0 k, hx1 k]

/-- Second layer: the same reading of its stored entry. -/
theorem matmulPayload2_entry (x0 : Vec Ideal S5000x128 .f32) (x1 : Vec Ideal S128x128 .f32)
    (X : Cert.Spec.Nodes.Idx → EReal) (W : Cert.Spec.Weights.Idx → EReal) (p : Fin 100000) (r : Fin 5000) (q : Fin 128)
    (hx0 : ∀ k : Fin 128, x0 (ix2 r k) = X (ix2 p k)) (hx1 : ∀ k : Fin 128, x1 (ix2 k q) = W (ix2 k q)) :
    Gen.k2_pay1 (F := Ideal) x0 x1 (ix2 r q) = Cert.Spec.denseAt X W p q := by
  rw [matmulPayload2_apply]
  unfold Cert.Spec.denseAt
  exact Finset.sum_congr rfl fun k _ => by rw [hx0 k, hx1 k]

end Cert.KernelIdeal.RegionValue

end
-- ==== Proof.Region0.lean ====
/-
  The first layer's row-tiled product, from blocks to the whole array.

  The grid has 20 points. Point t reads rows 5000·t … 5000·t + 4999 of the [100000, 128] operand X and all of the
  [128, 128] weights W, and writes rows 5000·t … 5000·t + 4999 of the result. Entry (r, q) of what it writes is
  entry (5000·t + r, q) of X · W, so each point writes its block of X · W; row p lies in the block of point p / 5000,
  so the blocks cover the array, and the array ends holding X · W.
-/
import proofs.«141909_j79422535238248_1_alg».proof.Proof.Gen.KernelIdeal.Frame
import proofs.«141909_j79422535238248_1_alg».proof.Proof.Spec
import proofs.«141909_j79422535238248_1_alg».proof.Proof.MatmulEntry
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The block indices at point t: the operand's and the result's blocks are block t of the rows, the weights' block is
    the whole array. Decided over the 20 points. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, q) of the result's block at point t sits at (5000·t + r, q) of the array. -/
theorem resultBlock0_emb (t : Fin cfg0.N) (r : Fin 5000) (q : Fin 128) (p : Fin 100000) (hp : p.val = t.val * 5000 + r.val) :
    ((cfg0.win 2).blk t).view.emb (ix2 r q) = (ix2 p q : S100000x128.Idx) := by
  obtain ⟨-, -, -, -, e20, e21⟩ := blockIndex0 t
  funext a
  apply Fin.ext
  match a with
  | ⟨0, _⟩ => show win0_2.index t (0 : Fin 2) * 5000 + 1 * r.val = p.val; omega
  | ⟨1, _⟩ => show win0_2.index t (1 : Fin 2) * 128 + 1 * q.val = q.val; omega

/-- Entry (r, k) of the operand's block at point t is entry (5000·t + r, k) of the operand. -/
theorem operandBlock0_apply (t : Fin cfg0.N) (r : Fin 5000) (k : Fin 128) (p : Fin 100000) (hp : p.val = t.val * 5000 + r.val) :
    (iblk0 (F := Ideal) V c 0 t : Vec Ideal S5000x128 .f32) (ix2 r k) = (V c main_arg0 : S100000x128.Idx → EReal) (ix2 p k) := by
  obtain ⟨e00, e01, -, -, -, -⟩ := blockIndex0 t
  unfold iblk0
  rw [View.read_apply]
  show V c main_arg0 (((cfg0.win 0).blk t).view.emb (ix2 r k)) = V c main_arg0 (ix2 p k)
  congr 1
  funext a
  apply Fin.ext
  match a with
  | ⟨0, _⟩ => show win0_0.index t (0 : Fin 2) * 5000 + 1 * r.val = p.val; omega
  | ⟨1, _⟩ => show win0_0.index t (1 : Fin 2) * 128 + 1 * k.val = k.val; omega

/-- The weights' block at every point is the weights. -/
theorem weightsBlock0_apply (t : Fin cfg0.N) (k : Fin 128) (q : Fin 128) :
    (iblk0 (F := Ideal) V c 1 t : Vec Ideal S128x128 .f32) (ix2 k q) = (V c main_arg3 : S128x128.Idx → EReal) (ix2 k q) := by
  obtain ⟨-, -, e10, e11, -, -⟩ := blockIndex0 t
  unfold iblk0
  rw [View.read_apply]
  show V c main_arg3 (((cfg0.win 1).blk t).view.emb (ix2 k q)) = V c main_arg3 (ix2 k q)
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of X · W. -/
theorem flushed0 (t : Fin cfg0.N) :
    (dat0 (F := Ideal) V c).flushed 2 t
      = ((cfg0.win 2).blk t).view.read (Elt Ideal) (Cert.Spec.dense (V c main_arg0) (V c main_arg3)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  refine funext fun (j : S5000x128.Idx) => ?_
  obtain ⟨r, q, rfl⟩ : ∃ (r : Fin 5000) (q : Fin 128), j = ix2 r q := ⟨j 0, j 1, eq_ix2 j⟩
  have hN : cfg0.N = 20 := N_0
  have ht : t.val < 20 := hN ▸ t.isLt
  obtain ⟨p, hp⟩ : ∃ p : Fin 100000, p.val = t.val * 5000 + r.val := ⟨⟨t.val * 5000 + r.val, by omega⟩, rfl⟩
  show Gen.k0_pay1 (F := Ideal) (iblk0 V c 0 t) (iblk0 V c 1 t) (ix2 r q)
    = Cert.Spec.dense (V c main_arg0) (V c main_arg3) (((cfg0.win 2).blk t).view.emb (ix2 r q))
  rw [resultBlock0_emb t r q p hp, Cert.Spec.dense_ix2]
  exact matmulPayload0_entry (iblk0 V c 0 t) (iblk0 V c 1 t) (V c main_arg0) (V c main_arg3) p r q
    (fun k => operandBlock0_apply V c t r k p hp) (fun k => weightsBlock0_apply V c t k q)

/-- An index of the array is in point t's block iff each coordinate is in the block's range on its axis. -/
theorem mem_resultBlock0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v35).slice (win0_2.rect t)).set ↔ _
  rw [View.set_slice_whole, Rect.mem_set_unit]
  exact Iff.rfl

/-- Row p of the array is in the block of point p / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := blockIndex0 t
  refine ⟨t, flush0_2 t, ?_⟩
  rw [mem_resultBlock0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The first layer's product array after its region is X · W of the arrays the region finds. -/
theorem region0 : (dat0 (F := Ideal) V c).arrAt 2 cfg0.N = Cert.Spec.dense (V c main_arg0) (V c main_arg3) :=
  (dat0 (F := Ideal) V c).arrAt_eq_of_cover 2 (Cert.Spec.dense (V c main_arg0) (V c main_arg3))
    (fun t _ => flushed0 V c t) cover0

end Cert.KernelIdeal.RegionValue

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.PostEntry.lean ====
/-
  The normalising block body read entry by entry on the extended reals.

  The body receives a [5000, 128] block x0, the bias row x1, the slope cell x2 and the scale and shift rows x3, x4.
  It adds the bias row to every row of the block, applies the parametric rectifier (keep h where h ≥ 0, else the
  slope times h), and normalises every row over its 128 lanes: with μ the lane mean and σ² the lane mean of
  (h - μ)², entry (r, q) of the result is (h(r, q) - μ(r)) · (σ²(r) + ε)^(-1/2) · x3(0, q) + x4(0, q).

  Each stage is named, read at an index by coordinates, and the result at (r, q) is identified with entry (p, q)
  of the whole-array function `Cert.Spec.post` as soon as row r of the block is row p of the array and the four
  small operands are the array's.
-/
import proofs.«141909_j79422535238248_1_alg».proof.Proof.Gen.KernelIdeal.Frame
import proofs.«141909_j79422535238248_1_alg».proof.Proof.Spec
import proofs.«141909_j79422535238248_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx Cert.KernelIdeal Cert.KernelIdeal.Gen

/-- The zero offsets of an access to a whole buffer. -/
theorem post_zero_offsets : (![0, 0] : Fin 2 → Nat) = fun _ => 0 := funext fun a => by fin_cases a <;> rfl

/-! ## The lane sum of a block -/

/-- The index the lane reduction inserts coordinate k into, at row r, is (r, k). -/
theorem lift_lane (h : S5000x128.Reduces [1] S5000) (r : Fin 5000) (k : Fin 128) : h.lift (ix1 r) k = ix2 r k := by
  funext a; apply Fin.ext; match a with | ⟨0, _⟩ => rfl | ⟨1, _⟩ => rfl

/-- The sum over the lanes of a [5000, 128] block, at row r, is the sum over k of the entries (r, k). -/
theorem laneSum_apply (v : FVec Ideal S5000x128 .f32) (h : S5000x128.Reduces [1] S5000) (hφ : FKind.Formats .f32)
    (hacc : (0x00000000#32 : BitVec 32) = FKind.add.neutral .f32 hφ) (r : Fin 5000) :
    multiReduction .add [1] S5000 v 0x00000000#32 h hφ hacc (ix1 r) = ∑ k : Fin 128, v (ix2 r k) := by
  refine (Ideal.multiReduction_add_single v 0x00000000#32 h hφ hacc (ix1 r)).trans ?_
  exact Finset.sum_congr rfl fun k _ => congrArg v (lift_lane h r k)

/-! ## The stages of the body -/

section Stages

variable (x0 : Vec Ideal S5000x128 .f32) (x1 : Vec Ideal S1x128 .f32) (x2 : Vec Ideal S1x1 .f32)
  (x3 x4 : Vec Ideal S1x128 .f32)

/-- The block with the bias row added to every row. -/
def blkPre : FVec Ideal S5000x128 .f32 :=
  addf (shapeCast S5000x128 x0 Gen.shapeCasts_S5000x128_S5000x128)
    (broadcastTo S5000x128 (shapeCast S1x128 x1 Gen.shapeCasts_S1x128_S1x128) Gen.broadcasts_S1x128_S5000x128)

/-- The block after the parametric rectifier: h where h ≥ 0, the slope times h elsewhere. -/
def blkAct : FVec Ideal S5000x128 .f32 :=
  select (cmpf .oge (blkPre x0 x1) (broadcast S5000x128 (Scalar.ofBits (F := Ideal) .f32 0x00000000#32))) (blkPre x0 x1)
    (mulf (broadcast S5000x128 (extractAt ![0, 0] x2 Gen.inpos_S1x1_p0_0)) (blkPre x0 x1))

/-- The lane mean of a block, as a column: the lane sum divided by 128. -/
def colMean (v : FVec Ideal S5000x128 .f32) : FVec Ideal S5000x1 .f32 :=
  divf (shapeCast S5000x1 (multiReduction .add [1] S5000 v 0x00000000#32 Gen.reduces_S5000x128_S5000 (.inl rfl) rfl)
      Gen.shapeCasts_S5000_S5000x1)
    (broadcast S5000x1 (Scalar.ofBits (F := Ideal) .f32 0x43000000#32))

/-- A block minus its lane mean, row by row. -/
def blkDev (v : FVec Ideal S5000x128 .f32) : FVec Ideal S5000x128 .f32 :=
  subf v (broadcastTo S5000x128 (colMean v) Gen.broadcasts_S5000x1_S5000x128)

/-- The lane mean of the squared deviations, as a column. -/
def colVar (v : FVec Ideal S5000x128 .f32) : FVec Ideal S5000x1 .f32 :=
  colMean (mulf (blkDev v) (blkDev v))

/-- The body's result is the deviation of the activated block, times the inverse root of its variance plus ε, times
    the scale row, plus the shift row. -/
theorem k1_pay1_eq : k1_pay1 x0 x1 x2 x3 x4
    = addf (mulf (mulf (blkDev (blkAct x0 x1 x2))
          (broadcastTo S5000x128
            (rsqrt (addf (colVar (blkAct x0 x1 x2)) (broadcast S5000x1 (Scalar.ofBits (F := Ideal) .f32 0x3727C5AC#32))))
            Gen.broadcasts_S5000x1_S5000x128))
        (broadcastTo S5000x128 (shapeCast S1x128 x3 Gen.shapeCasts_S1x128_S1x128) Gen.broadcasts_S1x128_S5000x128))
      (broadcastTo S5000x128 (shapeCast S1x128 x4 Gen.shapeCasts_S1x128_S1x128) Gen.broadcasts_S1x128_S5000x128) := rfl

/-- The second normalising body has the same text as the first. -/
theorem k3_pay1_eq : k3_pay1 x0 x1 x2 x3 x4 = k1_pay1 x0 x1 x2 x3 x4 := rfl

/-! ## The stages at an index -/

/-- Entry (r, q) after the bias: the block's entry plus the bias row's entry q. -/
theorem blkPre_apply (r : Fin 5000) (q : Fin 128) : blkPre x0 x1 (ix2 r q) = x0 (ix2 r q) + x1 (ix2 0 q) := by
  unfold blkPre
  rw [shapeCast_self, shapeCast_self]
  show x0 (ix2 r q) + broadcastTo S5000x128 x1 Gen.broadcasts_S1x128_S5000x128 (ix2 r q) = _
  rw [broadcastTo_1b_ab_apply]

/-- The slope cell's one entry. -/
theorem slope_eq : extractAt ![0, 0] x2 Gen.inpos_S1x1_p0_0 = x2 (ix2 0 0) :=
  congrArg x2 (funext fun a => Fin.ext (by match a with | ⟨0, _⟩ => rfl | ⟨1, _⟩ => rfl))

/-- Entry (r, q) after the rectifier. -/
theorem blkAct_apply (r : Fin 5000) (q : Fin 128) :
    blkAct x0 x1 x2 (ix2 r q)
      = Scalar.select (Ideal.cmp .oge (x0 (ix2 r q) + x1 (ix2 0 q)) (Ideal.ofBits .f32 0x00000000#32))
          (x0 (ix2 r q) + x1 (ix2 0 q)) (x2 (ix2 0 0) * (x0 (ix2 r q) + x1 (ix2 0 q))) := by
  show Scalar.select (Ideal.cmp .oge (blkPre x0 x1 (ix2 r q)) (Ideal.ofBits .f32 0x00000000#32)) (blkPre x0 x1 (ix2 r q))
      (extractAt ![0, 0] x2 Gen.inpos_S1x1_p0_0 * blkPre x0 x1 (ix2 r q)) = _
  rw [blkPre_apply, slope_eq]

/-- The lane mean at row r: the sum of the row's 128 entries divided by 128. -/
theorem colMean_apply (v : FVec Ideal S5000x128 .f32) (r : Fin 5000) (u : Fin 1) :
    colMean v (ix2 r u) = Ideal.div (∑ k : Fin 128, v (ix2 r k)) (Ideal.ofBits .f32 0x43000000#32) := by
  show Ideal.div (shapeCast S5000x1 (multiReduction .add [1] S5000 v 0x00000000#32 Gen.reduces_S5000x128_S5000 (.inl rfl) rfl)
      Gen.shapeCasts_S5000_S5000x1 (ix2 r u)) (Ideal.ofBits .f32 0x43000000#32) = _
  exact congrArg (fun s => Ideal.div s (Ideal.ofBits .f32 0x43000000#32))
    ((PhysLoss.shapeCast_a_a1_apply _ Gen.shapeCasts_S5000_S5000x1 r u).trans
      (laneSum_apply v Gen.reduces_S5000x128_S5000 (.inl rfl) rfl r))

/-- Entry (r, q) of a block minus its lane mean. -/
theorem blkDev_apply (v : FVec Ideal S5000x128 .f32) (r : Fin 5000) (q : Fin 128) :
    blkDev v (ix2 r q) = v (ix2 r q) - Ideal.div (∑ k : Fin 128, v (ix2 r k)) (Ideal.ofBits .f32 0x43000000#32) := by
  show v (ix2 r q) - broadcastTo S5000x128 (colMean v) Gen.broadcasts_S5000x1_S5000x128 (ix2 r q) = _
  rw [PhysLoss.broadcastTo_a1_ab_apply, colMean_apply]

/-- The lane mean of the squared deviations at row r. -/
theorem colVar_apply (v : FVec Ideal S5000x128 .f32) (r : Fin 5000) (u : Fin 1) :
    colVar v (ix2 r u)
      = Ideal.div (∑ k : Fin 128, blkDev v (ix2 r k) * blkDev v (ix2 r k)) (Ideal.ofBits .f32 0x43000000#32) := by
  unfold colVar
  rw [colMean_apply]
  rfl

/-- Entry (r, q) of the body's result, in the stages. -/
theorem k1_pay1_apply (r : Fin 5000) (q : Fin 128) :
    k1_pay1 x0 x1 x2 x3 x4 (ix2 r q)
      = blkDev (blkAct x0 x1 x2) (ix2 r q)
          * Ideal.rsqrt (colVar (blkAct x0 x1 x2) (ix2 r (0 : Fin 1)) + Ideal.ofBits .f32 0x3727C5AC#32)
          * x3 (ix2 0 q) + x4 (ix2 0 q) := by
  rw [k1_pay1_eq]
  show blkDev (blkAct x0 x1 x2) (ix2 r q)
      * broadcastTo S5000x128
          (rsqrt (addf (colVar (blkAct x0 x1 x2)) (broadcast S5000x1 (Scalar.ofBits (F := Ideal) .f32 0x3727C5AC#32))))
          Gen.broadcasts_S5000x1_S5000x128 (ix2 r q)
      * broadcastTo S5000x128 (shapeCast S1x128 x3 Gen.shapeCasts_S1x128_S1x128) Gen.broadcasts_S1x128_S5000x128 (ix2 r q)
      + broadcastTo S5000x128 (shapeCast S1x128 x4 Gen.shapeCasts_S1x128_S1x128) Gen.broadcasts_S1x128_S5000x128 (ix2 r q) = _
  rw [PhysLoss.broadcastTo_a1_ab_apply, broadcastTo_1b_ab_apply, broadcastTo_1b_ab_apply, shapeCast_self, shapeCast_self]
  rfl

/-! ## The body's entry is the whole-array function's -/

/-- When row r of the block is row p of the array A and the four small operands are the arrays b, a, g, β, entry
    (r, q) of the body's result is entry (p, q) of the normalised array. -/
theorem k1_pay1_entry (A : Cert.Spec.Nodes.Idx → EReal) (b : Cert.Spec.Row.Idx → EReal) (a : Cert.Spec.Cell.Idx → EReal)
    (g β : Cert.Spec.Row.Idx → EReal) (r : Fin 5000) (p : Fin 100000) (q : Fin 128)
    (hA : ∀ k : Fin 128, x0 (ix2 r k) = A (ix2 p k)) (hb : ∀ k : Fin 128, x1 (ix2 0 k) = b (ix2 0 k))
    (ha : x2 (ix2 0 0) = a (ix2 0 0)) (hg : ∀ k : Fin 128, x3 (ix2 0 k) = g (ix2 0 k))
    (hβ : ∀ k : Fin 128, x4 (ix2 0 k) = β (ix2 0 k)) :
    k1_pay1 x0 x1 x2 x3 x4 (ix2 r q) = Cert.Spec.postAt A b a g β p q := by
  have hact : ∀ k : Fin 128, blkAct x0 x1 x2 (ix2 r k) = Cert.Spec.act A b a p k := fun k => by
    rw [blkAct_apply, hA, hb, ha]; rfl
  have hmean : Ideal.div (∑ k : Fin 128, blkAct x0 x1 x2 (ix2 r k)) (Ideal.ofBits .f32 0x43000000#32)
      = Cert.Spec.mean A b a p := by
    unfold Cert.Spec.mean
    rw [Finset.sum_congr rfl fun k _ => hact k]
  have hdev : ∀ k : Fin 128, blkDev (blkAct x0 x1 x2) (ix2 r k) = Cert.Spec.act A b a p k - Cert.Spec.mean A b a p :=
    fun k => by rw [blkDev_apply, hact, hmean]
  have hvar : colVar (blkAct x0 x1 x2) (ix2 r (0 : Fin 1)) = Cert.Spec.var A b a p := by
    rw [colVar_apply]
    unfold Cert.Spec.var
    rw [Finset.sum_congr rfl fun k _ => by rw [hdev k]]
  rw [k1_pay1_apply, hdev, hvar, hg, hβ]
  rfl

/-- The same at an index j of the block: its row is j 0, its lane j 1. -/
theorem k1_pay1_at (A : Cert.Spec.Nodes.Idx → EReal) (b : Cert.Spec.Row.Idx → EReal) (a : Cert.Spec.Cell.Idx → EReal)
    (g β : Cert.Spec.Row.Idx → EReal) (j : S5000x128.Idx) (p : Fin 100000)
    (hA : ∀ k : Fin 128, x0 (ix2 (j 0) k) = A (ix2 p k)) (hb : ∀ k : Fin 128, x1 (ix2 0 k) = b (ix2 0 k))
    (ha : x2 (ix2 0 0) = a (ix2 0 0)) (hg : ∀ k : Fin 128, x3 (ix2 0 k) = g (ix2 0 k))
    (hβ : ∀ k : Fin 128, x4 (ix2 0 k) = β (ix2 0 k)) :
    k1_pay1 x0 x1 x2 x3 x4 j = Cert.Spec.postAt A b a g β p (j 1) :=
  (congrArg (k1_pay1 x0 x1 x2 x3 x4) (eq_ix2 j)).trans
    (k1_pay1_entry x0 x1 x2 x3 x4 A b a g β (j 0) p (j 1) hA hb ha hg hβ)

end Stages

end Cert.KernelIdeal.RegionValue

end
-- ==== Proof.Region1.lean ====
/-
  The first normalising region: twenty grid points, point t taking rows 5000·t … 5000·t + 4999 of the [100000, 128]
  operand, the bias, slope, scale and shift operands whole at every point, and writing the same rows of the result.

  What point t writes back is rows 5000·t … of the whole-array function `Cert.Spec.post` of the region's operands: row
  r of the operand block is row 5000·t + r of the operand array, every small operand's block is the operand, and the
  body's entry is then the whole-array function's (the entry lemma of the body). Every row lies in the block of
  point ⌊row / 5000⌋, so the result array ends holding `Cert.Spec.post` of the operands.
-/
import proofs.«141909_j79422535238248_1_alg».proof.Proof.PostEntry

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-- The block indices at point t: the row-blocked windows are at block (t, 0), the whole windows at block (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of the operand block at point t is row 5000·t + r of the operand array. -/
theorem operand_block1 (t : Fin cfg1.N) (r : Fin 5000) (k : Fin 128) (p : Fin 100000) (hp : p.val = t.val * 5000 + r.val) :
    iblk1 V c 0 t (ix2 r k) = V c main_v48 (ix2 p k) := by
  obtain ⟨e00, e01, -⟩ := block_index1 t
  show V c main_v48 (((cfg1.win 0).blk t).view.emb (ix2 r k)) = V c main_v48 (ix2 p k)
  refine congrArg (V c main_v48) (funext fun a => Fin.ext ?_)
  match a with
  | ⟨0, _⟩ => show win1_0.index t (0 : Fin 2) * 5000 + 1 * r.val = p.val; rw [e00, hp]; omega
  | ⟨1, _⟩ => show win1_0.index t (1 : Fin 2) * 128 + 1 * k.val = k.val; rw [e01]; omega

/-- The bias window's block at every point is the bias array. -/
theorem bias_block1 (t : Fin cfg1.N) (k : Fin 128) : iblk1 V c 1 t (ix2 0 k) = V c main_v49 (ix2 0 k) := by
  obtain ⟨-, -, e10, e11, -⟩ := block_index1 t
  show V c main_v49 (((cfg1.win 1).blk t).view.emb (ix2 0 k)) = V c main_v49 (ix2 0 k)
  refine congrArg (V c main_v49) (funext fun a => Fin.ext ?_)
  match a with
  | ⟨0, _⟩ => show win1_1.index t (0 : Fin 2) * 1 + 1 * 0 = 0; rw [e10]
  | ⟨1, _⟩ => show win1_1.index t (1 : Fin 2) * 128 + 1 * k.val = k.val; rw [e11]; omega

/-- The slope window's block at every point is the slope array. -/
theorem slope_block1 (t : Fin cfg1.N) : iblk1 V c 2 t (ix2 0 0) = V c main_v50 (ix2 0 0) := by
  obtain ⟨-, -, -, -, e20, e21, -⟩ := block_index1 t
  show V c main_v50 (((cfg1.win 2).blk t).view.emb (ix2 0 0)) = V c main_v50 (ix2 0 0)
  refine congrArg (V c main_v50) (funext fun a => Fin.ext ?_)
  match a with
  | ⟨0, _⟩ => show win1_2.index t (0 : Fin 2) * 1 + 1 * 0 = 0; rw [e20]
  | ⟨1, _⟩ => show win1_2.index t (1 : Fin 2) * 1 + 1 * 0 = 0; rw [e21]

/-- The scale window's block at every point is the scale array. -/
theorem scale_block1 (t : Fin cfg1.N) (k : Fin 128) : iblk1 V c 3 t (ix2 0 k) = V c main_v51 (ix2 0 k) := by
  obtain ⟨-, -, -, -, -, -, e30, e31, -⟩ := block_index1 t
  show V c main_v51 (((cfg1.win 3).blk t).view.emb (ix2 0 k)) = V c main_v51 (ix2 0 k)
  refine congrArg (V c main_v51) (funext fun a => Fin.ext ?_)
  match a with
  | ⟨0, _⟩ => show win1_3.index t (0 : Fin 2) * 1 + 1 * 0 = 0; rw [e30]
  | ⟨1, _⟩ => show win1_3.index t (1 : Fin 2) * 128 + 1 * k.val = k.val; rw [e31]; omega

/-- The shift window's block at every point is the shift array. -/
theorem shift_block1 (t : Fin cfg1.N) (k : Fin 128) : iblk1 V c 4 t (ix2 0 k) = V c main_v52 (ix2 0 k) := by
  obtain ⟨-, -, -, -, -, -, -, -, e40, e41, -⟩ := block_index1 t
  show V c main_v52 (((cfg1.win 4).blk t).view.emb (ix2 0 k)) = V c main_v52 (ix2 0 k)
  refine congrArg (V c main_v52) (funext fun a => Fin.ext ?_)
  match a with
  | ⟨0, _⟩ => show win1_4.index t (0 : Fin 2) * 1 + 1 * 0 = 0; rw [e40]
  | ⟨1, _⟩ => show win1_4.index t (1 : Fin 2) * 128 + 1 * k.val = k.val; rw [e41]; omega

/-- Entry (r, q) of the result block at point t sits at (5000·t + r, q) of the result array. -/
theorem result_block1 (t : Fin cfg1.N) (j : S5000x128.Idx) (p : Fin 100000) (hp : p.val = t.val * 5000 + (j 0).val) :
    ((cfg1.win 5).blk t).view.emb j = ix2 p (j 1) := by
  obtain ⟨-, -, -, -, -, -, -, -, -, -, e50, e51⟩ := block_index1 t
  refine funext fun a => Fin.ext ?_
  match a with
  | ⟨0, _⟩ => show win1_5.index t (0 : Fin 2) * 5000 + 1 * (j 0).val = p.val; rw [e50, hp]; omega
  | ⟨1, _⟩ => show win1_5.index t (1 : Fin 2) * 128 + 1 * (j 1).val = (j 1).val; rw [e51]; omega

/-- What the body leaves at point t, entry by entry. -/
theorem body_block1 (t : Fin cfg1.N) (j : S5000x128.Idx) (p : Fin 100000) (hp : p.val = t.val * 5000 + (j 0).val) :
    k1_pay1 (iblk1 V c 0 t) (iblk1 V c 1 t) (iblk1 V c 2 t) (iblk1 V c 3 t) (iblk1 V c 4 t) j
      = Cert.Spec.post (V c main_v48) (V c main_v49) (V c main_v50) (V c main_v51) (V c main_v52) (ix2 p (j 1)) :=
  k1_pay1_at (iblk1 V c 0 t) (iblk1 V c 1 t) (iblk1 V c 2 t) (iblk1 V c 3 t) (iblk1 V c 4 t)
    (V c main_v48) (V c main_v49) (V c main_v50) (V c main_v51) (V c main_v52) j p
    (fun k => operand_block1 V c t (j 0) k p hp) (fun k => bias_block1 V c t k) (slope_block1 V c t)
    (fun k => scale_block1 V c t k) (fun k => shift_block1 V c t k)

/-- A block whose entries are those of a whole-array function at the block's positions in the result array is that
    function read through the block. -/
theorem flushed_of_entries1 (X : Vec Ideal S5000x128 .f32) (G : S100000x128.Idx → EReal) (t : Fin cfg1.N)
    (h : ∀ j : S5000x128.Idx, X j = G (((cfg1.win 5).blk t).view.emb j)) :
    (cfg1.win 5).cut (grid1.coords t) X = ((cfg1.win 5).blk t).view.read (Elt Ideal) G :=
  funext fun j => h j

/-- What point t writes back is block t of the normalised array. -/
theorem flushed1_eq (t : Fin cfg1.N) :
    (dat1 (F := Ideal) V c).flushed 5 t
      = ((cfg1.win 5).blk t).view.read (Elt Ideal)
          (Cert.Spec.post (V c main_v48) (V c main_v49) (V c main_v50) (V c main_v51) (V c main_v52)) := by
  show (cfg1.win 5).cut (grid1.coords t) ((dat1 V c).after 5 t) = _
  rw [after1_5]
  unfold out1_5
  rw [View.canon_unit_zero post_zero_offsets]
  simp only [View.ld_unit_zero (S := S5000x128) post_zero_offsets, View.ld_unit_zero (S := S1x128) post_zero_offsets,
    View.ld_unit_zero (S := S1x1) post_zero_offsets]
  refine flushed_of_entries1 (k1_pay1 (iblk1 V c 0 t) (iblk1 V c 1 t) (iblk1 V c 2 t) (iblk1 V c 3 t) (iblk1 V c 4 t))
    (Cert.Spec.post (V c main_v48) (V c main_v49) (V c main_v50) (V c main_v51) (V c main_v52)) t fun j => ?_
  have hj0 : (j 0).val < 5000 := idx2_lt0 j
  have hN : t.val < 20 := Nat.lt_of_lt_of_eq t.isLt N_1
  have hp : (⟨t.val * 5000 + (j 0).val, by omega⟩ : Fin 100000).val = t.val * 5000 + (j 0).val := rfl
  exact (body_block1 V c t j _ hp).trans
    (congrArg (Cert.Spec.post (V c main_v48) (V c main_v49) (V c main_v50) (V c main_v51) (V c main_v52))
      (result_block1 t j _ hp).symm)

/-- An index of the result array is in point t's block iff each coordinate is in the block's range on its axis. -/
theorem mem_blk1 (t : Fin cfg1.N) (i : S100000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v53).slice (win1_5.rect t)).set ↔ _
  rw [View.set_slice_whole, Rect.mem_set_unit]
  exact Iff.rfl

/-- Every index of the result array is in the block of the point its row falls in. -/
theorem cover1 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 20 := N_1
  let t : Fin cfg1.N := ⟨(i 0).val / 5000, by rw [hN]; omega⟩
  obtain ⟨_, _, _, _, _, _, _, _, _, _, e50, e51⟩ := block_index1 t
  have ht : t.val = (i 0).val / 5000 := rfl
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 128 ≤ (i 1).val ∧ (i 1).val < win1_5.index t (1 : Fin 2) * 128 + 128
    rw [e51]; omega

/-- The result array of the first normalising region is the normalised array of its operands. -/
theorem region1 : (dat1 (F := Ideal) V c).arrAt 5 cfg1.N
    = Cert.Spec.post (V c main_v48) (V c main_v49) (V c main_v50) (V c main_v51) (V c main_v52) :=
  (dat1 (F := Ideal) V c).arrAt_eq_of_cover 5
    (Cert.Spec.post (V c main_v48) (V c main_v49) (V c main_v50) (V c main_v51) (V c main_v52))
    (fun t _ => flushed1_eq V c t) cover1

end Cert.KernelIdeal.RegionValue

end
-- ==== Proof.Region2.lean ====
/-
  The second layer's row-tiled product, from blocks to the whole array.

  The grid has 20 points. Point t reads rows 5000·t … 5000·t + 4999 of the [100000, 128] operand X and all of the
  [128, 128] weights W, and writes rows 5000·t … 5000·t + 4999 of the result. Entry (r, q) of what it writes is
  entry (5000·t + r, q) of X · W, so each point writes its block of X · W; row p lies in the block of point p / 5000,
  so the blocks cover the array, and the array ends holding X · W.
-/
import proofs.«141909_j79422535238248_1_alg».proof.Proof.Gen.KernelIdeal.Frame
import proofs.«141909_j79422535238248_1_alg».proof.Proof.Spec
import proofs.«141909_j79422535238248_1_alg».proof.Proof.MatmulEntry
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The block indices at point t: the operand's and the result's blocks are block t of the rows, the weights' block is
    the whole array. Decided over the 20 points. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (r, q) of the result's block at point t sits at (5000·t + r, q) of the array. -/
theorem resultBlock2_emb (t : Fin cfg2.N) (r : Fin 5000) (q : Fin 128) (p : Fin 100000) (hp : p.val = t.val * 5000 + r.val) :
    ((cfg2.win 2).blk t).view.emb (ix2 r q) = (ix2 p q : S100000x128.Idx) := by
  obtain ⟨-, -, -, -, e20, e21⟩ := blockIndex2 t
  funext a
  apply Fin.ext
  match a with
  | ⟨0, _⟩ => show win2_2.index t (0 : Fin 2) * 5000 + 1 * r.val = p.val; omega
  | ⟨1, _⟩ => show win2_2.index t (1 : Fin 2) * 128 + 1 * q.val = q.val; omega

/-- Entry (r, k) of the operand's block at point t is entry (5000·t + r, k) of the operand. -/
theorem operandBlock2_apply (t : Fin cfg2.N) (r : Fin 5000) (k : Fin 128) (p : Fin 100000) (hp : p.val = t.val * 5000 + r.val) :
    (iblk2 (F := Ideal) V c 0 t : Vec Ideal S5000x128 .f32) (ix2 r k) = (V c main_v53 : S100000x128.Idx → EReal) (ix2 p k) := by
  obtain ⟨e00, e01, -, -, -, -⟩ := blockIndex2 t
  unfold iblk2
  rw [View.read_apply]
  show V c main_v53 (((cfg2.win 0).blk t).view.emb (ix2 r k)) = V c main_v53 (ix2 p k)
  congr 1
  funext a
  apply Fin.ext
  match a with
  | ⟨0, _⟩ => show win2_0.index t (0 : Fin 2) * 5000 + 1 * r.val = p.val; omega
  | ⟨1, _⟩ => show win2_0.index t (1 : Fin 2) * 128 + 1 * k.val = k.val; omega

/-- The weights' block at every point is the weights. -/
theorem weightsBlock2_apply (t : Fin cfg2.N) (k : Fin 128) (q : Fin 128) :
    (iblk2 (F := Ideal) V c 1 t : Vec Ideal S128x128 .f32) (ix2 k q) = (V c main_arg5 : S128x128.Idx → EReal) (ix2 k q) := by
  obtain ⟨-, -, e10, e11, -, -⟩ := blockIndex2 t
  unfold iblk2
  rw [View.read_apply]
  show V c main_arg5 (((cfg2.win 1).blk t).view.emb (ix2 k q)) = V c main_arg5 (ix2 k q)
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What point t writes back is block t of X · W. -/
theorem flushed2 (t : Fin cfg2.N) :
    (dat2 (F := Ideal) V c).flushed 2 t
      = ((cfg2.win 2).blk t).view.read (Elt Ideal) (Cert.Spec.dense (V c main_v53) (V c main_arg5)) := by
  show (cfg2.win 2).cut (grid2.coords t) ((dat2 (F := Ideal) V c).after 2 t) = _
  rw [after2_2]
  unfold out2_2
  rw [View.canon_unit_zero zeroOffsets]
  simp only [View.ld_unit_zero (S := S5000x128) zeroOffsets, View.ld_unit_zero (S := S128x128) zeroOffsets]
  refine funext fun (j : S5000x128.Idx) => ?_
  obtain ⟨r, q, rfl⟩ : ∃ (r : Fin 5000) (q : Fin 128), j = ix2 r q := ⟨j 0, j 1, eq_ix2 j⟩
  have hN : cfg2.N = 20 := N_2
  have ht : t.val < 20 := hN ▸ t.isLt
  obtain ⟨p, hp⟩ : ∃ p : Fin 100000, p.val = t.val * 5000 + r.val := ⟨⟨t.val * 5000 + r.val, by omega⟩, rfl⟩
  show Gen.k2_pay1 (F := Ideal) (iblk2 V c 0 t) (iblk2 V c 1 t) (ix2 r q)
    = Cert.Spec.dense (V c main_v53) (V c main_arg5) (((cfg2.win 2).blk t).view.emb (ix2 r q))
  rw [resultBlock2_emb t r q p hp, Cert.Spec.dense_ix2]
  exact matmulPayload2_entry (iblk2 V c 0 t) (iblk2 V c 1 t) (V c main_v53) (V c main_arg5) p r q
    (fun k => operandBlock2_apply V c t r k p hp) (fun k => weightsBlock2_apply V c t k q)

/-- An index of the array is in point t's block iff each coordinate is in the block's range on its axis. -/
theorem mem_resultBlock2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v54).slice (win2_2.rect t)).set ↔ _
  rw [View.set_slice_whole, Rect.mem_set_unit]
  exact Iff.rfl

/-- Row p of the array is in the block of point p / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e20, e21⟩ := blockIndex2 t
  refine ⟨t, flush2_2 t, ?_⟩
  rw [mem_resultBlock2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The second layer's product array after its region is X · W of the arrays the region finds. -/
theorem region2 : (dat2 (F := Ideal) V c).arrAt 2 cfg2.N = Cert.Spec.dense (V c main_v53) (V c main_arg5) :=
  (dat2 (F := Ideal) V c).arrAt_eq_of_cover 2 (Cert.Spec.dense (V c main_v53) (V c main_arg5))
    (fun t _ => flushed2 V c t) cover2

end Cert.KernelIdeal.RegionValue

end
-- ==== Proof.Region3.lean ====
/-
  The second normalising region: twenty grid points, point t taking rows 5000·t … 5000·t + 4999 of the [100000, 128]
  operand, the bias, slope, scale and shift operands whole at every point, and writing the same rows of the result.

  What point t writes back is rows 5000·t … of the whole-array function `Cert.Spec.post` of the region's operands: row
  r of the operand block is row 5000·t + r of the operand array, every small operand's block is the operand, and the
  body's entry is then the whole-array function's (the entry lemma of the body). Every row lies in the block of
  point ⌊row / 5000⌋, so the result array ends holding `Cert.Spec.post` of the operands.
-/
import proofs.«141909_j79422535238248_1_alg».proof.Proof.PostEntry

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-- The block indices at point t: the row-blocked windows are at block (t, 0), the whole windows at block (0, 0). -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of the operand block at point t is row 5000·t + r of the operand array. -/
theorem operand_block3 (t : Fin cfg3.N) (r : Fin 5000) (k : Fin 128) (p : Fin 100000) (hp : p.val = t.val * 5000 + r.val) :
    iblk3 V c 0 t (ix2 r k) = V c main_v67 (ix2 p k) := by
  obtain ⟨e00, e01, -⟩ := block_index3 t
  show V c main_v67 (((cfg3.win 0).blk t).view.emb (ix2 r k)) = V c main_v67 (ix2 p k)
  refine congrArg (V c main_v67) (funext fun a => Fin.ext ?_)
  match a with
  | ⟨0, _⟩ => show win3_0.index t (0 : Fin 2) * 5000 + 1 * r.val = p.val; rw [e00, hp]; omega
  | ⟨1, _⟩ => show win3_0.index t (1 : Fin 2) * 128 + 1 * k.val = k.val; rw [e01]; omega

/-- The bias window's block at every point is the bias array. -/
theorem bias_block3 (t : Fin cfg3.N) (k : Fin 128) : iblk3 V c 1 t (ix2 0 k) = V c main_v68 (ix2 0 k) := by
  obtain ⟨-, -, e10, e11, -⟩ := block_index3 t
  show V c main_v68 (((cfg3.win 1).blk t).view.emb (ix2 0 k)) = V c main_v68 (ix2 0 k)
  refine congrArg (V c main_v68) (funext fun a => Fin.ext ?_)
  match a with
  | ⟨0, _⟩ => show win3_1.index t (0 : Fin 2) * 1 + 1 * 0 = 0; rw [e10]
  | ⟨1, _⟩ => show win3_1.index t (1 : Fin 2) * 128 + 1 * k.val = k.val; rw [e11]; omega

/-- The slope window's block at every point is the slope array. -/
theorem slope_block3 (t : Fin cfg3.N) : iblk3 V c 2 t (ix2 0 0) = V c main_v69 (ix2 0 0) := by
  obtain ⟨-, -, -, -, e20, e21, -⟩ := block_index3 t
  show V c main_v69 (((cfg3.win 2).blk t).view.emb (ix2 0 0)) = V c main_v69 (ix2 0 0)
  refine congrArg (V c main_v69) (funext fun a => Fin.ext ?_)
  match a with
  | ⟨0, _⟩ => show win3_2.index t (0 : Fin 2) * 1 + 1 * 0 = 0; rw [e20]
  | ⟨1, _⟩ => show win3_2.index t (1 : Fin 2) * 1 + 1 * 0 = 0; rw [e21]

/-- The scale window's block at every point is the scale array. -/
theorem scale_block3 (t : Fin cfg3.N) (k : Fin 128) : iblk3 V c 3 t (ix2 0 k) = V c main_v70 (ix2 0 k) := by
  obtain ⟨-, -, -, -, -, -, e30, e31, -⟩ := block_index3 t
  show V c main_v70 (((cfg3.win 3).blk t).view.emb (ix2 0 k)) = V c main_v70 (ix2 0 k)
  refine congrArg (V c main_v70) (funext fun a => Fin.ext ?_)
  match a with
  | ⟨0, _⟩ => show win3_3.index t (0 : Fin 2) * 1 + 1 * 0 = 0; rw [e30]
  | ⟨1, _⟩ => show win3_3.index t (1 : Fin 2) * 128 + 1 * k.val = k.val; rw [e31]; omega

/-- The shift window's block at every point is the shift array. -/
theorem shift_block3 (t : Fin cfg3.N) (k : Fin 128) : iblk3 V c 4 t (ix2 0 k) = V c main_v71 (ix2 0 k) := by
  obtain ⟨-, -, -, -, -, -, -, -, e40, e41, -⟩ := block_index3 t
  show V c main_v71 (((cfg3.win 4).blk t).view.emb (ix2 0 k)) = V c main_v71 (ix2 0 k)
  refine congrArg (V c main_v71) (funext fun a => Fin.ext ?_)
  match a with
  | ⟨0, _⟩ => show win3_4.index t (0 : Fin 2) * 1 + 1 * 0 = 0; rw [e40]
  | ⟨1, _⟩ => show win3_4.index t (1 : Fin 2) * 128 + 1 * k.val = k.val; rw [e41]; omega

/-- Entry (r, q) of the result block at point t sits at (5000·t + r, q) of the result array. -/
theorem result_block3 (t : Fin cfg3.N) (j : S5000x128.Idx) (p : Fin 100000) (hp : p.val = t.val * 5000 + (j 0).val) :
    ((cfg3.win 5).blk t).view.emb j = ix2 p (j 1) := by
  obtain ⟨-, -, -, -, -, -, -, -, -, -, e50, e51⟩ := block_index3 t
  refine funext fun a => Fin.ext ?_
  match a with
  | ⟨0, _⟩ => show win3_5.index t (0 : Fin 2) * 5000 + 1 * (j 0).val = p.val; rw [e50, hp]; omega
  | ⟨1, _⟩ => show win3_5.index t (1 : Fin 2) * 128 + 1 * (j 1).val = (j 1).val; rw [e51]; omega

/-- What the body leaves at point t, entry by entry. -/
theorem body_block3 (t : Fin cfg3.N) (j : S5000x128.Idx) (p : Fin 100000) (hp : p.val = t.val * 5000 + (j 0).val) :
    k3_pay1 (iblk3 V c 0 t) (iblk3 V c 1 t) (iblk3 V c 2 t) (iblk3 V c 3 t) (iblk3 V c 4 t) j
      = Cert.Spec.post (V c main_v67) (V c main_v68) (V c main_v69) (V c main_v70) (V c main_v71) (ix2 p (j 1)) :=
  (congrFun (k3_pay1_eq (iblk3 V c 0 t) (iblk3 V c 1 t) (iblk3 V c 2 t) (iblk3 V c 3 t) (iblk3 V c 4 t)) j).trans <|
  k1_pay1_at (iblk3 V c 0 t) (iblk3 V c 1 t) (iblk3 V c 2 t) (iblk3 V c 3 t) (iblk3 V c 4 t)
    (V c main_v67) (V c main_v68) (V c main_v69) (V c main_v70) (V c main_v71) j p
    (fun k => operand_block3 V c t (j 0) k p hp) (fun k => bias_block3 V c t k) (slope_block3 V c t)
    (fun k => scale_block3 V c t k) (fun k => shift_block3 V c t k)

/-- A block whose entries are those of a whole-array function at the block's positions in the result array is that
    function read through the block. -/
theorem flushed_of_entries3 (X : Vec Ideal S5000x128 .f32) (G : S100000x128.Idx → EReal) (t : Fin cfg3.N)
    (h : ∀ j : S5000x128.Idx, X j = G (((cfg3.win 5).blk t).view.emb j)) :
    (cfg3.win 5).cut (grid3.coords t) X = ((cfg3.win 5).blk t).view.read (Elt Ideal) G :=
  funext fun j => h j

/-- What point t writes back is block t of the normalised array. -/
theorem flushed3_eq (t : Fin cfg3.N) :
    (dat3 (F := Ideal) V c).flushed 5 t
      = ((cfg3.win 5).blk t).view.read (Elt Ideal)
          (Cert.Spec.post (V c main_v67) (V c main_v68) (V c main_v69) (V c main_v70) (V c main_v71)) := by
  show (cfg3.win 5).cut (grid3.coords t) ((dat3 V c).after 5 t) = _
  rw [after3_5]
  unfold out3_5
  rw [View.canon_unit_zero post_zero_offsets]
  simp only [View.ld_unit_zero (S := S5000x128) post_zero_offsets, View.ld_unit_zero (S := S1x128) post_zero_offsets,
    View.ld_unit_zero (S := S1x1) post_zero_offsets]
  refine flushed_of_entries3 (k3_pay1 (iblk3 V c 0 t) (iblk3 V c 1 t) (iblk3 V c 2 t) (iblk3 V c 3 t) (iblk3 V c 4 t))
    (Cert.Spec.post (V c main_v67) (V c main_v68) (V c main_v69) (V c main_v70) (V c main_v71)) t fun j => ?_
  have hj0 : (j 0).val < 5000 := idx2_lt0 j
  have hN : t.val < 20 := Nat.lt_of_lt_of_eq t.isLt N_3
  have hp : (⟨t.val * 5000 + (j 0).val, by omega⟩ : Fin 100000).val = t.val * 5000 + (j 0).val := rfl
  exact (body_block3 V c t j _ hp).trans
    (congrArg (Cert.Spec.post (V c main_v67) (V c main_v68) (V c main_v69) (V c main_v70) (V c main_v71))
      (result_block3 t j _ hp).symm)

/-- An index of the result array is in point t's block iff each coordinate is in the block's range on its axis. -/
theorem mem_blk3 (t : Fin cfg3.N) (i : S100000x128.Idx) :
    i ∈ ((cfg3.win 5).blk t).view.set
      ↔ ∀ a : Fin 2, win3_5.index t a * S5000x128.size a ≤ (i a).val
          ∧ (i a).val < win3_5.index t a * S5000x128.size a + S5000x128.size a := by
  show i ∈ ((View.whole main_v72).slice (win3_5.rect t)).set ↔ _
  rw [View.set_slice_whole, Rect.mem_set_unit]
  exact Iff.rfl

/-- Every index of the result array is in the block of the point its row falls in. -/
theorem cover3 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 20 := N_3
  let t : Fin cfg3.N := ⟨(i 0).val / 5000, by rw [hN]; omega⟩
  obtain ⟨_, _, _, _, _, _, _, _, _, _, e50, e51⟩ := block_index3 t
  have ht : t.val = (i 0).val / 5000 := rfl
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    rw [e50, ht]; omega
  | ⟨1, _⟩ =>
    show win3_5.index t (1 : Fin 2) * 128 ≤ (i 1).val ∧ (i 1).val < win3_5.index t (1 : Fin 2) * 128 + 128
    rw [e51]; omega

/-- The result array of the second normalising region is the normalised array of its operands. -/
theorem region3 : (dat3 (F := Ideal) V c).arrAt 5 cfg3.N
    = Cert.Spec.post (V c main_v67) (V c main_v68) (V c main_v69) (V c main_v70) (V c main_v71) :=
  (dat3 (F := Ideal) V c).arrAt_eq_of_cover 5
    (Cert.Spec.post (V c main_v67) (V c main_v68) (V c main_v69) (V c main_v70) (V c main_v71))
    (fun t _ => flushed3_eq V c t) cover3

end Cert.KernelIdeal.RegionValue

end
-- ==== Proof.RefDense.lean ====
/-
  The reference's two matrix products, read at an index, are the specification's `dense`.

  Entry (p, q) of a product of a [100000, 128] array with a [128, 128] array is the sum over the 128
  contracted positions k of the left factor at (p, k) times the right factor at (k, q).
-/
import proofs.«141909_j79422535238248_1_alg».proof.Proof.RefReadP
import proofs.«141909_j79422535238248_1_alg».proof.Proof.Spec

noncomputable section
namespace Cert.ReferenceIdeal.RefValue
open Cert.ReferenceIdeal Cert.ReferenceIdeal.Read Idealize.ShloMosaic
open Idealize.ShloMosaic.ValueIdx

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S1, .f32⟩ : BufTy).Contents (Elt Ideal))
  (x8 x9 : (⟨S128, .f32⟩ : BufTy).Contents (Elt Ideal))

/-- The left factor of the first product is read at (p, k). -/
theorem lidx35 (p : Fin 100000) (q k : Fin 128) : lidx_main_v35 (ix2 p q) k = ix2 p k :=
  funext fun a => Fin.ext (by match a with | ⟨0, _⟩ => rfl | ⟨1, _⟩ => rfl)

/-- The right factor of the first product is read at (k, q). -/
theorem ridx35 (p : Fin 100000) (q k : Fin 128) : ridx_main_v35 (ix2 p q) k = ix2 k q :=
  funext fun a => Fin.ext (by match a with | ⟨0, _⟩ => rfl | ⟨1, _⟩ => rfl)

/-- The left factor of the second product is read at (p, k). -/
theorem lidx117 (p : Fin 100000) (q k : Fin 128) : lidx_main_v117 (ix2 p q) k = ix2 p k :=
  funext fun a => Fin.ext (by match a with | ⟨0, _⟩ => rfl | ⟨1, _⟩ => rfl)

/-- The right factor of the second product is read at (k, q). -/
theorem ridx117 (p : Fin 100000) (q k : Fin 128) : ridx_main_v117 (ix2 p q) k = ix2 k q :=
  funext fun a => Fin.ext (by match a with | ⟨0, _⟩ => rfl | ⟨1, _⟩ => rfl)

/-- The first layer's product x · W. -/
theorem dense1 : val_main_v35 (F := Ideal) x0 x3 = Cert.Spec.dense x0 x3 := by
  funext i
  obtain ⟨p, q, rfl⟩ : ∃ (p : Fin 100000) (q : Fin 128), i = ix2 p q := ⟨i 0, i 1, eq_ix2 i⟩
  rw [val_main_v35_apply, Cert.Spec.dense_ix2]
  unfold Cert.Spec.denseAt
  refine Finset.sum_congr rfl fun k _ => ?_
  rw [lidx35, ridx35]

/-- The second layer's product: the first layer's normalised output times the second weight matrix. -/
theorem dense2 : val_main_v117 (F := Ideal) x0 x1 x2 x3 x4 x5 x7 x8 x9
    = Cert.Spec.dense (val_main_v81 (F := Ideal) x0 x1 x2 x3 x4 x7 x8 x9) x5 := by
  funext i
  obtain ⟨p, q, rfl⟩ : ∃ (p : Fin 100000) (q : Fin 128), i = ix2 p q := ⟨i 0, i 1, eq_ix2 i⟩
  rw [val_main_v117_apply, Cert.Spec.dense_ix2]
  unfold Cert.Spec.denseAt
  refine Finset.sum_congr rfl fun k _ => ?_
  rw [lidx117, ridx117]

end Cert.ReferenceIdeal.RefValue
end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.RefPost1.lean ====
/-
  The reference's first bias / rectifier / normalisation block, read at an index, is the specification's `post`.

  With A the aggregated [100000, 128] array the block receives, row p is treated lane by lane: h = A + bias,
  then h is kept where h ≥ 0 and multiplied by the shared slope elsewhere (`act`); μ is the sum of the 128
  lanes of the row divided by 128 (`mean`); σ² is the sum of the 128 squared deviations (h - μ)·(h - μ) divided
  by 128 (`var`); and the result is (h - μ) · (σ² + ε)^(-1/2) · scale + shift. The lemmas below read the
  stages in that order — the activated entry, its row sum, the mean, the deviation, the sum of squares, the
  variance, the inverse root — and the theorem puts them together. The bias, scale and shift vectors and the
  slope are laid out by the program along a leading axis of size one; the specification takes them as one-row
  arrays, and a vector cast to a one-row array read at (0, j) is the vector at j.
-/
import proofs.«141909_j79422535238248_1_alg».proof.Proof.RefReadP
import proofs.«141909_j79422535238248_1_alg».proof.Proof.Spec
import proofs.«141909_j79422535238248_1_alg».proof.Proof.LibSageLayer

noncomputable section
namespace Cert.ReferenceIdeal.RefValue
open Cert.ReferenceIdeal Cert.ReferenceIdeal.Read Idealize.ShloMosaic
open Idealize.ShloMosaic.ValueIdx

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S1, .f32⟩ : BufTy).Contents (Elt Ideal))
  (x8 x9 : (⟨S128, .f32⟩ : BufTy).Contents (Elt Ideal))
  (hrow : (⟨1, ![128]⟩ : Shape).ShapeCasts ⟨2, ![1, 128]⟩) (hcell : (⟨1, ![1]⟩ : Shape).ShapeCasts ⟨2, ![1, 1]⟩)

/-! ## Where each layout stage reads its operand -/

/-- The bias laid over the array is read at lane q. -/
theorem biasIdx₁ (p : Fin 100000) (q : Fin 128) : idx_main_v49 (idx_main_v50 (ix2 p q)) = ix1 q :=
  funext fun a => Fin.ext (by match a with | ⟨0, _⟩ => rfl)

/-- The slope laid over the array is read at its one position. -/
theorem slopeIdx₁ (p : Fin 100000) (q : Fin 128) : idx_main_v54 (idx_main_v55 (ix2 p q)) = ix1 (0 : Fin 1) :=
  funext fun a => Fin.ext (by match a with | ⟨0, _⟩ => rfl)

/-- The first row sum runs over the lanes (p, k). -/
theorem sumIdx₁ (p : Fin 100000) (k : Fin 128) : idx_main_v58 (ix1 p) k = ix2 p k :=
  funext fun a => Fin.ext (by match a with | ⟨0, _⟩ => rfl | ⟨1, _⟩ => rfl)

/-- The second row sum runs over the lanes (p, k). -/
theorem sqIdx₁ (p : Fin 100000) (k : Fin 128) : idx_main_v65 (ix1 p) k = ix2 p k :=
  funext fun a => Fin.ext (by match a with | ⟨0, _⟩ => rfl | ⟨1, _⟩ => rfl)

/-- A row sum laid as a column is read at row p. -/
theorem colIdxA₁ (p : Fin 100000) : idx_main_v59 (ix2 p (0 : Fin 1)) = ix1 p :=
  funext fun a => Fin.ext (by match a with | ⟨0, _⟩ => rfl)

/-- A row sum laid as a column is read at row p. -/
theorem colIdxB₁ (p : Fin 100000) : idx_main_v66 (ix2 p (0 : Fin 1)) = ix1 p :=
  funext fun a => Fin.ext (by match a with | ⟨0, _⟩ => rfl)

/-- A column laid over the lanes is read at (p, 0). -/
theorem laneIdxA₁ (p : Fin 100000) (q : Fin 128) : idx_main_v62 (ix2 p q) = ix2 p (0 : Fin 1) :=
  funext fun a => Fin.ext (by match a with | ⟨0, _⟩ => rfl | ⟨1, _⟩ => rfl)

/-- A column laid over the lanes is read at (p, 0). -/
theorem laneIdxB₁ (p : Fin 100000) (q : Fin 128) : idx_main_v69 (ix2 p q) = ix2 p (0 : Fin 1) :=
  funext fun a => Fin.ext (by match a with | ⟨0, _⟩ => rfl | ⟨1, _⟩ => rfl)

/-- A column laid over the lanes is read at (p, 0). -/
theorem laneIdxC₁ (p : Fin 100000) (q : Fin 128) : idx_main_v74 (ix2 p q) = ix2 p (0 : Fin 1) :=
  funext fun a => Fin.ext (by match a with | ⟨0, _⟩ => rfl | ⟨1, _⟩ => rfl)

/-- The scale laid over the array is read at lane q. -/
theorem scaleIdx₁ (p : Fin 100000) (q : Fin 128) : idx_main_v76 (idx_main_v77 (ix2 p q)) = ix1 q :=
  funext fun a => Fin.ext (by match a with | ⟨0, _⟩ => rfl)

/-- The shift laid over the array is read at lane q. -/
theorem shiftIdx₁ (p : Fin 100000) (q : Fin 128) : idx_main_v79 (idx_main_v80 (ix2 p q)) = ix1 q :=
  funext fun a => Fin.ext (by match a with | ⟨0, _⟩ => rfl)

/-! ## The stages, in order -/

/-- The activated entry: h = A + bias, kept where h ≥ 0, multiplied by the slope elsewhere. -/
theorem actAt₁ (p : Fin 100000) (q : Fin 128) :
    val_main_v57 (F := Ideal) x0 x1 x2 x3 x4 x7 (ix2 p q) = Cert.Spec.act (val_main_v48 (F := Ideal) x0 x1 x2 x3) (shapeCast ⟨2, ![1, 128]⟩ x4 hrow) (shapeCast ⟨2, ![1, 1]⟩ x7 hcell) p q := by
  unfold Cert.Spec.act
  rw [Cert.Sage.rowcast_apply, Cert.Sage.rowcast_apply]
  rw [val_main_v57_apply, val_main_v53_apply, val_main_v56_apply, val_main_v51_apply, val_main_v52_apply, val_main_cst_11_apply,
    val_main_v55_apply, val_main_v54_apply, val_main_v50_apply, val_main_v49_apply, biasIdx₁, slopeIdx₁]
  rfl

/-- The sum of the 128 activated lanes of row p. -/
theorem rowSum₁ (p : Fin 100000) :
    val_main_v58 (F := Ideal) x0 x1 x2 x3 x4 x7 (ix1 p) = ∑ k : Fin 128, Cert.Spec.act (val_main_v48 (F := Ideal) x0 x1 x2 x3) (shapeCast ⟨2, ![1, 128]⟩ x4 hrow) (shapeCast ⟨2, ![1, 1]⟩ x7 hcell) p k := by
  rw [val_main_v58_apply, val_main_cst_12_apply, Ideal.ofBits_def, Ideal.ofBits_zero_f32, zero_add]
  refine Finset.sum_congr rfl fun k _ => ?_
  rw [sumIdx₁, actAt₁]

/-- The lane mean of row p. -/
theorem meanAt₁ (p : Fin 100000) :
    val_main_v61 (F := Ideal) x0 x1 x2 x3 x4 x7 (ix2 p (0 : Fin 1)) = Cert.Spec.mean (val_main_v48 (F := Ideal) x0 x1 x2 x3) (shapeCast ⟨2, ![1, 128]⟩ x4 hrow) (shapeCast ⟨2, ![1, 1]⟩ x7 hcell) p := by
  unfold Cert.Spec.mean
  rw [val_main_v61_apply, val_main_v59_apply, val_main_v60_apply, val_main_cst_13_apply, colIdxA₁, rowSum₁]
  rfl

/-- The deviation h - μ that is squared. -/
theorem devAt₁ (p : Fin 100000) (q : Fin 128) :
    val_main_v63 (F := Ideal) x0 x1 x2 x3 x4 x7 (ix2 p q) = Cert.Spec.act (val_main_v48 (F := Ideal) x0 x1 x2 x3) (shapeCast ⟨2, ![1, 128]⟩ x4 hrow) (shapeCast ⟨2, ![1, 1]⟩ x7 hcell) p q - Cert.Spec.mean (val_main_v48 (F := Ideal) x0 x1 x2 x3) (shapeCast ⟨2, ![1, 128]⟩ x4 hrow) (shapeCast ⟨2, ![1, 1]⟩ x7 hcell) p := by
  rw [val_main_v63_apply, val_main_v62_apply, laneIdxA₁, meanAt₁, actAt₁]
  rfl

/-- The deviation h - μ that is scaled. -/
theorem devAt'₁ (p : Fin 100000) (q : Fin 128) :
    val_main_v70 (F := Ideal) x0 x1 x2 x3 x4 x7 (ix2 p q) = Cert.Spec.act (val_main_v48 (F := Ideal) x0 x1 x2 x3) (shapeCast ⟨2, ![1, 128]⟩ x4 hrow) (shapeCast ⟨2, ![1, 1]⟩ x7 hcell) p q - Cert.Spec.mean (val_main_v48 (F := Ideal) x0 x1 x2 x3) (shapeCast ⟨2, ![1, 128]⟩ x4 hrow) (shapeCast ⟨2, ![1, 1]⟩ x7 hcell) p := by
  rw [val_main_v70_apply, val_main_v69_apply, laneIdxB₁, meanAt₁, actAt₁]
  rfl

/-- The sum of the 128 squared deviations of row p. -/
theorem sqSum₁ (p : Fin 100000) :
    val_main_v65 (F := Ideal) x0 x1 x2 x3 x4 x7 (ix1 p) = ∑ k : Fin 128, (Cert.Spec.act (val_main_v48 (F := Ideal) x0 x1 x2 x3) (shapeCast ⟨2, ![1, 128]⟩ x4 hrow) (shapeCast ⟨2, ![1, 1]⟩ x7 hcell) p k - Cert.Spec.mean (val_main_v48 (F := Ideal) x0 x1 x2 x3) (shapeCast ⟨2, ![1, 128]⟩ x4 hrow) (shapeCast ⟨2, ![1, 1]⟩ x7 hcell) p)
        * (Cert.Spec.act (val_main_v48 (F := Ideal) x0 x1 x2 x3) (shapeCast ⟨2, ![1, 128]⟩ x4 hrow) (shapeCast ⟨2, ![1, 1]⟩ x7 hcell) p k - Cert.Spec.mean (val_main_v48 (F := Ideal) x0 x1 x2 x3) (shapeCast ⟨2, ![1, 128]⟩ x4 hrow) (shapeCast ⟨2, ![1, 1]⟩ x7 hcell) p) := by
  rw [val_main_v65_apply, val_main_cst_14_apply, Ideal.ofBits_def, Ideal.ofBits_zero_f32, zero_add]
  refine Finset.sum_congr rfl fun k _ => ?_
  rw [sqIdx₁, val_main_v64_apply, devAt₁]
  rfl

/-- The lane mean of the squared deviations of row p. -/
theorem varAt₁ (p : Fin 100000) :
    val_main_v68 (F := Ideal) x0 x1 x2 x3 x4 x7 (ix2 p (0 : Fin 1)) = Cert.Spec.var (val_main_v48 (F := Ideal) x0 x1 x2 x3) (shapeCast ⟨2, ![1, 128]⟩ x4 hrow) (shapeCast ⟨2, ![1, 1]⟩ x7 hcell) p := by
  unfold Cert.Spec.var
  rw [val_main_v68_apply, val_main_v66_apply, val_main_v67_apply, val_main_cst_15_apply, colIdxB₁, sqSum₁]
  rfl

/-- The inverse root (σ² + ε)^(-1/2) of row p. -/
theorem rstdAt₁ (p : Fin 100000) :
    val_main_v73 (F := Ideal) x0 x1 x2 x3 x4 x7 (ix2 p (0 : Fin 1))
      = Ideal.rsqrt (Cert.Spec.var (val_main_v48 (F := Ideal) x0 x1 x2 x3) (shapeCast ⟨2, ![1, 128]⟩ x4 hrow) (shapeCast ⟨2, ![1, 1]⟩ x7 hcell) p + Ideal.ofBits .f32 0x3727C5AC#32) := by
  rw [val_main_v73_apply, val_main_v72_apply, val_main_v71_apply, val_main_cst_16_apply, varAt₁]
  rfl

/-- The first layer's block after the aggregation is the specification's `post` of the aggregated array. -/
theorem post1 : val_main_v81 (F := Ideal) x0 x1 x2 x3 x4 x7 x8 x9
    = Cert.Spec.post (val_main_v48 (F := Ideal) x0 x1 x2 x3) (shapeCast ⟨2, ![1, 128]⟩ x4 hrow) (shapeCast ⟨2, ![1, 1]⟩ x7 hcell)
        (shapeCast ⟨2, ![1, 128]⟩ x8 hrow) (shapeCast ⟨2, ![1, 128]⟩ x9 hrow) := by
  funext i
  obtain ⟨p, q, rfl⟩ : ∃ (p : Fin 100000) (q : Fin 128), i = ix2 p q := ⟨i 0, i 1, eq_ix2 i⟩
  rw [Cert.Spec.post_ix2]
  unfold Cert.Spec.postAt
  rw [Cert.Sage.rowcast_apply, Cert.Sage.rowcast_apply]
  rw [val_main_v81_apply, val_main_v78_apply, val_main_v75_apply, val_main_v74_apply, val_main_v77_apply, val_main_v76_apply,
    val_main_v80_apply, val_main_v79_apply, laneIdxC₁, scaleIdx₁, shiftIdx₁, devAt'₁, rstdAt₁]
  rfl

end Cert.ReferenceIdeal.RefValue
end
-- ==== Proof.RefPost2.lean ====
/-
  The reference's second bias / rectifier / normalisation block, read at an index, is the specification's `post`.

  With A the aggregated [100000, 128] array the block receives, row p is treated lane by lane: h = A + bias,
  then h is kept where h ≥ 0 and multiplied by the shared slope elsewhere (`act`); μ is the sum of the 128
  lanes of the row divided by 128 (`mean`); σ² is the sum of the 128 squared deviations (h - μ)·(h - μ) divided
  by 128 (`var`); and the result is (h - μ) · (σ² + ε)^(-1/2) · scale + shift. The lemmas below read the
  stages in that order — the activated entry, its row sum, the mean, the deviation, the sum of squares, the
  variance, the inverse root — and the theorem puts them together. The bias, scale and shift vectors and the
  slope are laid out by the program along a leading axis of size one; the specification takes them as one-row
  arrays, and a vector cast to a one-row array read at (0, j) is the vector at j.
-/
import proofs.«141909_j79422535238248_1_alg».proof.Proof.RefReadP
import proofs.«141909_j79422535238248_1_alg».proof.Proof.Spec
import proofs.«141909_j79422535238248_1_alg».proof.Proof.LibSageLayer

noncomputable section
namespace Cert.ReferenceIdeal.RefValue
open Cert.ReferenceIdeal Cert.ReferenceIdeal.Read Idealize.ShloMosaic
open Idealize.ShloMosaic.ValueIdx

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S1, .f32⟩ : BufTy).Contents (Elt Ideal))
  (x8 x9 : (⟨S128, .f32⟩ : BufTy).Contents (Elt Ideal))
  (hrow : (⟨1, ![128]⟩ : Shape).ShapeCasts ⟨2, ![1, 128]⟩) (hcell : (⟨1, ![1]⟩ : Shape).ShapeCasts ⟨2, ![1, 1]⟩)

/-! ## Where each layout stage reads its operand -/

/-- The bias laid over the array is read at lane q. -/
theorem biasIdx₂ (p : Fin 100000) (q : Fin 128) : idx_main_v131 (idx_main_v132 (ix2 p q)) = ix1 q :=
  funext fun a => Fin.ext (by match a with | ⟨0, _⟩ => rfl)

/-- The slope laid over the array is read at its one position. -/
theorem slopeIdx₂ (p : Fin 100000) (q : Fin 128) : idx_main_v136 (idx_main_v137 (ix2 p q)) = ix1 (0 : Fin 1) :=
  funext fun a => Fin.ext (by match a with | ⟨0, _⟩ => rfl)

/-- The first row sum runs over the lanes (p, k). -/
theorem sumIdx₂ (p : Fin 100000) (k : Fin 128) : idx_main_v140 (ix1 p) k = ix2 p k :=
  funext fun a => Fin.ext (by match a with | ⟨0, _⟩ => rfl | ⟨1, _⟩ => rfl)

/-- The second row sum runs over the lanes (p, k). -/
theorem sqIdx₂ (p : Fin 100000) (k : Fin 128) : idx_main_v147 (ix1 p) k = ix2 p k :=
  funext fun a => Fin.ext (by match a with | ⟨0, _⟩ => rfl | ⟨1, _⟩ => rfl)

/-- A row sum laid as a column is read at row p. -/
theorem colIdxA₂ (p : Fin 100000) : idx_main_v141 (ix2 p (0 : Fin 1)) = ix1 p :=
  funext fun a => Fin.ext (by match a with | ⟨0, _⟩ => rfl)

/-- A row sum laid as a column is read at row p. -/
theorem colIdxB₂ (p : Fin 100000) : idx_main_v148 (ix2 p (0 : Fin 1)) = ix1 p :=
  funext fun a => Fin.ext (by match a with | ⟨0, _⟩ => rfl)

/-- A column laid over the lanes is read at (p, 0). -/
theorem laneIdxA₂ (p : Fin 100000) (q : Fin 128) : idx_main_v144 (ix2 p q) = ix2 p (0 : Fin 1) :=
  funext fun a => Fin.ext (by match a with | ⟨0, _⟩ => rfl | ⟨1, _⟩ => rfl)

/-- A column laid over the lanes is read at (p, 0). -/
theorem laneIdxB₂ (p : Fin 100000) (q : Fin 128) : idx_main_v151 (ix2 p q) = ix2 p (0 : Fin 1) :=
  funext fun a => Fin.ext (by match a with | ⟨0, _⟩ => rfl | ⟨1, _⟩ => rfl)

/-- A column laid over the lanes is read at (p, 0). -/
theorem laneIdxC₂ (p : Fin 100000) (q : Fin 128) : idx_main_v156 (ix2 p q) = ix2 p (0 : Fin 1) :=
  funext fun a => Fin.ext (by match a with | ⟨0, _⟩ => rfl | ⟨1, _⟩ => rfl)

/-- The scale laid over the array is read at lane q. -/
theorem scaleIdx₂ (p : Fin 100000) (q : Fin 128) : idx_main_v158 (idx_main_v159 (ix2 p q)) = ix1 q :=
  funext fun a => Fin.ext (by match a with | ⟨0, _⟩ => rfl)

/-- The shift laid over the array is read at lane q. -/
theorem shiftIdx₂ (p : Fin 100000) (q : Fin 128) : idx_main_v161 (idx_main_v162 (ix2 p q)) = ix1 q :=
  funext fun a => Fin.ext (by match a with | ⟨0, _⟩ => rfl)

/-! ## The stages, in order -/

/-- The activated entry: h = A + bias, kept where h ≥ 0, multiplied by the slope elsewhere. -/
theorem actAt₂ (p : Fin 100000) (q : Fin 128) :
    val_main_v139 (F := Ideal) x0 x1 x2 x3 x4 x5 x6 x7 x8 x9 (ix2 p q) = Cert.Spec.act (val_main_v130 (F := Ideal) x0 x1 x2 x3 x4 x5 x7 x8 x9) (shapeCast ⟨2, ![1, 128]⟩ x6 hrow) (shapeCast ⟨2, ![1, 1]⟩ x7 hcell) p q := by
  unfold Cert.Spec.act
  rw [Cert.Sage.rowcast_apply, Cert.Sage.rowcast_apply]
  rw [val_main_v139_apply, val_main_v135_apply, val_main_v138_apply, val_main_v133_apply, val_main_v134_apply, val_main_cst_30_apply,
    val_main_v137_apply, val_main_v136_apply, val_main_v132_apply, val_main_v131_apply, biasIdx₂, slopeIdx₂]
  rfl

/-- The sum of the 128 activated lanes of row p. -/
theorem rowSum₂ (p : Fin 100000) :
    val_main_v140 (F := Ideal) x0 x1 x2 x3 x4 x5 x6 x7 x8 x9 (ix1 p) = ∑ k : Fin 128, Cert.Spec.act (val_main_v130 (F := Ideal) x0 x1 x2 x3 x4 x5 x7 x8 x9) (shapeCast ⟨2, ![1, 128]⟩ x6 hrow) (shapeCast ⟨2, ![1, 1]⟩ x7 hcell) p k := by
  rw [val_main_v140_apply, val_main_cst_31_apply, Ideal.ofBits_def, Ideal.ofBits_zero_f32, zero_add]
  refine Finset.sum_congr rfl fun k _ => ?_
  rw [sumIdx₂, actAt₂]

/-- The lane mean of row p. -/
theorem meanAt₂ (p : Fin 100000) :
    val_main_v143 (F := Ideal) x0 x1 x2 x3 x4 x5 x6 x7 x8 x9 (ix2 p (0 : Fin 1)) = Cert.Spec.mean (val_main_v130 (F := Ideal) x0 x1 x2 x3 x4 x5 x7 x8 x9) (shapeCast ⟨2, ![1, 128]⟩ x6 hrow) (shapeCast ⟨2, ![1, 1]⟩ x7 hcell) p := by
  unfold Cert.Spec.mean
  rw [val_main_v143_apply, val_main_v141_apply, val_main_v142_apply, val_main_cst_32_apply, colIdxA₂, rowSum₂]
  rfl

/-- The deviation h - μ that is squared. -/
theorem devAt₂ (p : Fin 100000) (q : Fin 128) :
    val_main_v145 (F := Ideal) x0 x1 x2 x3 x4 x5 x6 x7 x8 x9 (ix2 p q) = Cert.Spec.act (val_main_v130 (F := Ideal) x0 x1 x2 x3 x4 x5 x7 x8 x9) (shapeCast ⟨2, ![1, 128]⟩ x6 hrow) (shapeCast ⟨2, ![1, 1]⟩ x7 hcell) p q - Cert.Spec.mean (val_main_v130 (F := Ideal) x0 x1 x2 x3 x4 x5 x7 x8 x9) (shapeCast ⟨2, ![1, 128]⟩ x6 hrow) (shapeCast ⟨2, ![1, 1]⟩ x7 hcell) p := by
  rw [val_main_v145_apply, val_main_v144_apply, laneIdxA₂, meanAt₂, actAt₂]
  rfl

/-- The deviation h - μ that is scaled. -/
theorem devAt'₂ (p : Fin 100000) (q : Fin 128) :
    val_main_v152 (F := Ideal) x0 x1 x2 x3 x4 x5 x6 x7 x8 x9 (ix2 p q) = Cert.Spec.act (val_main_v130 (F := Ideal) x0 x1 x2 x3 x4 x5 x7 x8 x9) (shapeCast ⟨2, ![1, 128]⟩ x6 hrow) (shapeCast ⟨2, ![1, 1]⟩ x7 hcell) p q - Cert.Spec.mean (val_main_v130 (F := Ideal) x0 x1 x2 x3 x4 x5 x7 x8 x9) (shapeCast ⟨2, ![1, 128]⟩ x6 hrow) (shapeCast ⟨2, ![1, 1]⟩ x7 hcell) p := by
  rw [val_main_v152_apply, val_main_v151_apply, laneIdxB₂, meanAt₂, actAt₂]
  rfl

/-- The sum of the 128 squared deviations of row p. -/
theorem sqSum₂ (p : Fin 100000) :
    val_main_v147 (F := Ideal) x0 x1 x2 x3 x4 x5 x6 x7 x8 x9 (ix1 p) = ∑ k : Fin 128, (Cert.Spec.act (val_main_v130 (F := Ideal) x0 x1 x2 x3 x4 x5 x7 x8 x9) (shapeCast ⟨2, ![1, 128]⟩ x6 hrow) (shapeCast ⟨2, ![1, 1]⟩ x7 hcell) p k - Cert.Spec.mean (val_main_v130 (F := Ideal) x0 x1 x2 x3 x4 x5 x7 x8 x9) (shapeCast ⟨2, ![1, 128]⟩ x6 hrow) (shapeCast ⟨2, ![1, 1]⟩ x7 hcell) p)
        * (Cert.Spec.act (val_main_v130 (F := Ideal) x0 x1 x2 x3 x4 x5 x7 x8 x9) (shapeCast ⟨2, ![1, 128]⟩ x6 hrow) (shapeCast ⟨2, ![1, 1]⟩ x7 hcell) p k - Cert.Spec.mean (val_main_v130 (F := Ideal) x0 x1 x2 x3 x4 x5 x7 x8 x9) (shapeCast ⟨2, ![1, 128]⟩ x6 hrow) (shapeCast ⟨2, ![1, 1]⟩ x7 hcell) p) := by
  rw [val_main_v147_apply, val_main_cst_33_apply, Ideal.ofBits_def, Ideal.ofBits_zero_f32, zero_add]
  refine Finset.sum_congr rfl fun k _ => ?_
  rw [sqIdx₂, val_main_v146_apply, devAt₂]
  rfl

/-- The lane mean of the squared deviations of row p. -/
theorem varAt₂ (p : Fin 100000) :
    val_main_v150 (F := Ideal) x0 x1 x2 x3 x4 x5 x6 x7 x8 x9 (ix2 p (0 : Fin 1)) = Cert.Spec.var (val_main_v130 (F := Ideal) x0 x1 x2 x3 x4 x5 x7 x8 x9) (shapeCast ⟨2, ![1, 128]⟩ x6 hrow) (shapeCast ⟨2, ![1, 1]⟩ x7 hcell) p := by
  unfold Cert.Spec.var
  rw [val_main_v150_apply, val_main_v148_apply, val_main_v149_apply, val_main_cst_34_apply, colIdxB₂, sqSum₂]
  rfl

/-- The inverse root (σ² + ε)^(-1/2) of row p. -/
theorem rstdAt₂ (p : Fin 100000) :
    val_main_v155 (F := Ideal) x0 x1 x2 x3 x4 x5 x6 x7 x8 x9 (ix2 p (0 : Fin 1))
      = Ideal.rsqrt (Cert.Spec.var (val_main_v130 (F := Ideal) x0 x1 x2 x3 x4 x5 x7 x8 x9) (shapeCast ⟨2, ![1, 128]⟩ x6 hrow) (shapeCast ⟨2, ![1, 1]⟩ x7 hcell) p + Ideal.ofBits .f32 0x3727C5AC#32) := by
  rw [val_main_v155_apply, val_main_v154_apply, val_main_v153_apply, val_main_cst_35_apply, varAt₂]
  rfl

/-- The second layer's block after the aggregation is the specification's `post` of the aggregated array. -/
theorem post2 : val_main_v163 (F := Ideal) x0 x1 x2 x3 x4 x5 x6 x7 x8 x9
    = Cert.Spec.post (val_main_v130 (F := Ideal) x0 x1 x2 x3 x4 x5 x7 x8 x9) (shapeCast ⟨2, ![1, 128]⟩ x6 hrow) (shapeCast ⟨2, ![1, 1]⟩ x7 hcell)
        (shapeCast ⟨2, ![1, 128]⟩ x8 hrow) (shapeCast ⟨2, ![1, 128]⟩ x9 hrow) := by
  funext i
  obtain ⟨p, q, rfl⟩ : ∃ (p : Fin 100000) (q : Fin 128), i = ix2 p q := ⟨i 0, i 1, eq_ix2 i⟩
  rw [Cert.Spec.post_ix2]
  unfold Cert.Spec.postAt
  rw [Cert.Sage.rowcast_apply, Cert.Sage.rowcast_apply]
  rw [val_main_v163_apply, val_main_v160_apply, val_main_v157_apply, val_main_v156_apply, val_main_v159_apply, val_main_v158_apply,
    val_main_v162_apply, val_main_v161_apply, laneIdxC₂, scaleIdx₂, shiftIdx₂, devAt'₂, rstdAt₂]
  rfl

end Cert.ReferenceIdeal.RefValue
end
-- ==== Proof.KernelValue.lean ====
/-
  The kernel program's result array is the reference's last stage at the arguments' launch contents.

  Walk the boundaries of @main's eleven segments.  After the first five stretches the source list, the destination
  list and the normalised edge weights are the reference's stages of arguments 1 and 2, and nothing later writes them
  or an argument.  The first region leaves the product of argument 0 with the first weight matrix: the reference's
  dot_general.  The next stretch aggregates it over the graph — the reference's aggregate — and reshapes the bias,
  slope, scale and shift to one-row arrays; the second region leaves the bias, rectifier and lane normalisation of
  that aggregate: the reference's first layer.  The third region multiplies it by the second weight matrix, the
  last stretch aggregates again over the same lists and weights (which the reference recomputes, to the same
  values), and the fourth region normalises: the reference's result.
-/
import proofs.«141909_j79422535238248_1_alg».proof.Proof.Gen.KernelIdeal.Frame
import proofs.«141909_j79422535238248_1_alg».proof.Proof.KernelStretch
import proofs.«141909_j79422535238248_1_alg».proof.Proof.Region0
import proofs.«141909_j79422535238248_1_alg».proof.Proof.Region1
import proofs.«141909_j79422535238248_1_alg».proof.Proof.Region2
import proofs.«141909_j79422535238248_1_alg».proof.Proof.Region3
import proofs.«141909_j79422535238248_1_alg».proof.Proof.RefDense
import proofs.«141909_j79422535238248_1_alg».proof.Proof.RefPost1
import proofs.«141909_j79422535238248_1_alg».proof.Proof.RefPost2

noncomputable section

namespace Cert.KernelIdeal.Value

open Cert.KernelIdeal Cert.KernelIdeal.Gen Cert.KernelIdeal.Stretch Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the first five stretches leave, and that it stays -/

theorem w5_v5 : W5 m ρ c (Proc.devRef .tc main_v5) = Cert.ReferenceIdeal.Read.val_main_v5 (F := Ideal) (m ((c : Thread nD τ).loc main_arg1)) := pro_v5 (W0 m ρ c)
theorem w5_v6 : W5 m ρ c (Proc.devRef .tc main_v6) = Cert.ReferenceIdeal.Read.val_main_v6 (F := Ideal) (m ((c : Thread nD τ).loc main_arg1)) := pro_v6 (W0 m ρ c)
theorem w5_v34 : W5 m ρ c (Proc.devRef .tc main_v34) = Cert.ReferenceIdeal.Read.val_main_v34 (F := Ideal) (m ((c : Thread nD τ).loc main_arg1)) (m ((c : Thread nD τ).loc main_arg2)) := pro_v34 (W0 m ρ c)
theorem w5_arg0 : W5 m ρ c (Proc.devRef .tc main_arg0) = (m ((c : Thread nD τ).loc main_arg0)) := pro_arg0 (W0 m ρ c)
theorem w5_arg3 : W5 m ρ c (Proc.devRef .tc main_arg3) = (m ((c : Thread nD τ).loc main_arg3)) := pro_arg3 (W0 m ρ c)
theorem w5_arg4 : W5 m ρ c (Proc.devRef .tc main_arg4) = (m ((c : Thread nD τ).loc main_arg4)) := pro_arg4 (W0 m ρ c)
theorem w5_arg5 : W5 m ρ c (Proc.devRef .tc main_arg5) = (m ((c : Thread nD τ).loc main_arg5)) := pro_arg5 (W0 m ρ c)
theorem w5_arg6 : W5 m ρ c (Proc.devRef .tc main_arg6) = (m ((c : Thread nD τ).loc main_arg6)) := pro_arg6 (W0 m ρ c)
theorem w5_arg7 : W5 m ρ c (Proc.devRef .tc main_arg7) = (m ((c : Thread nD τ).loc main_arg7)) := pro_arg7 (W0 m ρ c)
theorem w5_arg8 : W5 m ρ c (Proc.devRef .tc main_arg8) = (m ((c : Thread nD τ).loc main_arg8)) := pro_arg8 (W0 m ρ c)
theorem w5_arg9 : W5 m ρ c (Proc.devRef .tc main_arg9) = (m ((c : Thread nD τ).loc main_arg9)) := pro_arg9 (W0 m ρ c)
theorem w6_v5 : W6 m ρ c (Proc.devRef .tc main_v5) = Cert.ReferenceIdeal.Read.val_main_v5 (F := Ideal) (m ((c : Thread nD τ).loc main_arg1)) := (W6_of_ne m ρ c main_v5 (by decide)).trans (w5_v5 m ρ c)
theorem w6_v6 : W6 m ρ c (Proc.devRef .tc main_v6) = Cert.ReferenceIdeal.Read.val_main_v6 (F := Ideal) (m ((c : Thread nD τ).loc main_arg1)) := (W6_of_ne m ρ c main_v6 (by decide)).trans (w5_v6 m ρ c)
theorem w6_v34 : W6 m ρ c (Proc.devRef .tc main_v34) = Cert.ReferenceIdeal.Read.val_main_v34 (F := Ideal) (m ((c : Thread nD τ).loc main_arg1)) (m ((c : Thread nD τ).loc main_arg2)) := (W6_of_ne m ρ c main_v34 (by decide)).trans (w5_v34 m ρ c)
theorem w6_arg4 : W6 m ρ c (Proc.devRef .tc main_arg4) = (m ((c : Thread nD τ).loc main_arg4)) := (W6_of_ne m ρ c main_arg4 (by decide)).trans (w5_arg4 m ρ c)
theorem w6_arg5 : W6 m ρ c (Proc.devRef .tc main_arg5) = (m ((c : Thread nD τ).loc main_arg5)) := (W6_of_ne m ρ c main_arg5 (by decide)).trans (w5_arg5 m ρ c)
theorem w6_arg6 : W6 m ρ c (Proc.devRef .tc main_arg6) = (m ((c : Thread nD τ).loc main_arg6)) := (W6_of_ne m ρ c main_arg6 (by decide)).trans (w5_arg6 m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)

/-! ## The first layer -/

/-- The first region leaves the product of the input with the first weight matrix. -/
theorem w6_v35 : W6 m ρ c (Proc.devRef .tc main_v35) = Cert.ReferenceIdeal.Read.val_main_v35 (F := Ideal) (m ((c : Thread nD τ).loc main_arg0)) (m ((c : Thread nD τ).loc main_arg3)) :=
  (W6_arr m ρ c 2).trans ((region0 (V5 m ρ) c).trans
    ((congrArg₂ Cert.Spec.dense (w5_arg0 m ρ c) (w5_arg3 m ρ c)).trans (Cert.ReferenceIdeal.RefValue.dense1 _ _).symm))

/-- The stretch after it leaves the reference's first aggregate. -/
theorem w7_v48 : W7 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (mid_v48 (W6 m ρ c)).trans ?_
  rw [w6_v35 m ρ c, w6_v5 m ρ c, w6_v6 m ρ c, w6_v34 m ρ c]
  exact (Cert.ReferenceIdeal.Chain.v48_eq _ _ _ _).symm

theorem w7_v49 : W7 m ρ c (Proc.devRef .tc main_v49) = (shapeCast ⟨2, ![1, 128]⟩ (m ((c : Thread nD τ).loc main_arg4)) shapeCasts_S128_S1x128) :=
  (mid_v49 (W6 m ρ c)).trans (by rw [w6_arg4 m ρ c])
theorem w7_v50 : W7 m ρ c (Proc.devRef .tc main_v50) = (shapeCast ⟨2, ![1, 1]⟩ (m ((c : Thread nD τ).loc main_arg7)) shapeCasts_S1_S1x1) :=
  (mid_v50 (W6 m ρ c)).trans (by rw [w6_arg7 m ρ c])
theorem w7_v51 : W7 m ρ c (Proc.devRef .tc main_v51) = (shapeCast ⟨2, ![1, 128]⟩ (m ((c : Thread nD τ).loc main_arg8)) shapeCasts_S128_S1x128) :=
  (mid_v51 (W6 m ρ c)).trans (by rw [w6_arg8 m ρ c])
theorem w7_v52 : W7 m ρ c (Proc.devRef .tc main_v52) = (shapeCast ⟨2, ![1, 128]⟩ (m ((c : Thread nD τ).loc main_arg9)) shapeCasts_S128_S1x128) :=
  (mid_v52 (W6 m ρ c)).trans (by rw [w6_arg9 m ρ c])

theorem w7_v5 : W7 m ρ c (Proc.devRef .tc main_v5) = Cert.ReferenceIdeal.Read.val_main_v5 (F := Ideal) (m ((c : Thread nD τ).loc main_arg1)) := (mid_main_v5 (W6 m ρ c)).trans (w6_v5 m ρ c)
theorem w7_v6 : W7 m ρ c (Proc.devRef .tc main_v6) = Cert.ReferenceIdeal.Read.val_main_v6 (F := Ideal) (m ((c : Thread nD τ).loc main_arg1)) := (mid_main_v6 (W6 m ρ c)).trans (w6_v6 m ρ c)
theorem w7_v34 : W7 m ρ c (Proc.devRef .tc main_v34) = Cert.ReferenceIdeal.Read.val_main_v34 (F := Ideal) (m ((c : Thread nD τ).loc main_arg1)) (m ((c : Thread nD τ).loc main_arg2)) := (mid_main_v34 (W6 m ρ c)).trans (w6_v34 m ρ c)
theorem w7_arg5 : W7 m ρ c (Proc.devRef .tc main_arg5) = (m ((c : Thread nD τ).loc main_arg5)) := (mid_main_arg5 (W6 m ρ c)).trans (w6_arg5 m ρ c)
theorem w7_arg6 : W7 m ρ c (Proc.devRef .tc main_arg6) = (m ((c : Thread nD τ).loc main_arg6)) := (mid_main_arg6 (W6 m ρ c)).trans (w6_arg6 m ρ c)
theorem w7_arg7 : W7 m ρ c (Proc.devRef .tc main_arg7) = (m ((c : Thread nD τ).loc main_arg7)) := (mid_main_arg7 (W6 m ρ c)).trans (w6_arg7 m ρ c)
theorem w7_arg8 : W7 m ρ c (Proc.devRef .tc main_arg8) = (m ((c : Thread nD τ).loc main_arg8)) := (mid_main_arg8 (W6 m ρ c)).trans (w6_arg8 m ρ c)
theorem w7_arg9 : W7 m ρ c (Proc.devRef .tc main_arg9) = (m ((c : Thread nD τ).loc main_arg9)) := (mid_main_arg9 (W6 m ρ c)).trans (w6_arg9 m ρ c)

/-- The second region leaves the reference's first layer. -/
theorem w8_v53 : W8 m ρ c (Proc.devRef .tc main_v53) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  refine (W8_arr m ρ c 5).trans ((region1 (V7 m ρ) c).trans ?_)
  rw [show V7 m ρ c main_v48 = _ from w7_v48 m ρ c, show V7 m ρ c main_v49 = _ from w7_v49 m ρ c,
    show V7 m ρ c main_v50 = _ from w7_v50 m ρ c, show V7 m ρ c main_v51 = _ from w7_v51 m ρ c,
    show V7 m ρ c main_v52 = _ from w7_v52 m ρ c]
  exact (Cert.ReferenceIdeal.RefValue.post1 _ _ _ _ _ _ _ _ _ _).symm

theorem w8_v5 : W8 m ρ c (Proc.devRef .tc main_v5) = Cert.ReferenceIdeal.Read.val_main_v5 (F := Ideal) (m ((c : Thread nD τ).loc main_arg1)) := (W8_of_ne m ρ c main_v5 (by decide)).trans (w7_v5 m ρ c)
theorem w8_v6 : W8 m ρ c (Proc.devRef .tc main_v6) = Cert.ReferenceIdeal.Read.val_main_v6 (F := Ideal) (m ((c : Thread nD τ).loc main_arg1)) := (W8_of_ne m ρ c main_v6 (by decide)).trans (w7_v6 m ρ c)
theorem w8_v34 : W8 m ρ c (Proc.devRef .tc main_v34) = Cert.ReferenceIdeal.Read.val_main_v34 (F := Ideal) (m ((c : Thread nD τ).loc main_arg1)) (m ((c : Thread nD τ).loc main_arg2)) := (W8_of_ne m ρ c main_v34 (by decide)).trans (w7_v34 m ρ c)
theorem w8_arg5 : W8 m ρ c (Proc.devRef .tc main_arg5) = (m ((c : Thread nD τ).loc main_arg5)) := (W8_of_ne m ρ c main_arg5 (by decide)).trans (w7_arg5 m ρ c)
theorem w8_arg6 : W8 m ρ c (Proc.devRef .tc main_arg6) = (m ((c : Thread nD τ).loc main_arg6)) := (W8_of_ne m ρ c main_arg6 (by decide)).trans (w7_arg6 m ρ c)
theorem w8_arg7 : W8 m ρ c (Proc.devRef .tc main_arg7) = (m ((c : Thread nD τ).loc main_arg7)) := (W8_of_ne m ρ c main_arg7 (by decide)).trans (w7_arg7 m ρ c)
theorem w8_arg8 : W8 m ρ c (Proc.devRef .tc main_arg8) = (m ((c : Thread nD τ).loc main_arg8)) := (W8_of_ne m ρ c main_arg8 (by decide)).trans (w7_arg8 m ρ c)
theorem w8_arg9 : W8 m ρ c (Proc.devRef .tc main_arg9) = (m ((c : Thread nD τ).loc main_arg9)) := (W8_of_ne m ρ c main_arg9 (by decide)).trans (w7_arg9 m ρ c)

/-! ## The second layer -/

/-- The third region leaves the product of the first layer with the second weight matrix. -/
theorem w9_v54 : W9 m ρ c (Proc.devRef .tc main_v54) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) :=
  (W9_arr m ρ c 2).trans ((region2 (V8 m ρ) c).trans
    ((congrArg₂ Cert.Spec.dense (w8_v53 m ρ c) (w8_arg5 m ρ c)).trans (Cert.ReferenceIdeal.RefValue.dense2 _ _ _ _ _ _ _ _ _).symm))

theorem w9_v5 : W9 m ρ c (Proc.devRef .tc main_v5) = Cert.ReferenceIdeal.Read.val_main_v5 (F := Ideal) (m ((c : Thread nD τ).loc main_arg1)) := (W9_of_ne m ρ c main_v5 (by decide)).trans (w8_v5 m ρ c)
theorem w9_v6 : W9 m ρ c (Proc.devRef .tc main_v6) = Cert.ReferenceIdeal.Read.val_main_v6 (F := Ideal) (m ((c : Thread nD τ).loc main_arg1)) := (W9_of_ne m ρ c main_v6 (by decide)).trans (w8_v6 m ρ c)
theorem w9_v34 : W9 m ρ c (Proc.devRef .tc main_v34) = Cert.ReferenceIdeal.Read.val_main_v34 (F := Ideal) (m ((c : Thread nD τ).loc main_arg1)) (m ((c : Thread nD τ).loc main_arg2)) := (W9_of_ne m ρ c main_v34 (by decide)).trans (w8_v34 m ρ c)
theorem w9_arg6 : W9 m ρ c (Proc.devRef .tc main_arg6) = (m ((c : Thread nD τ).loc main_arg6)) := (W9_of_ne m ρ c main_arg6 (by decide)).trans (w8_arg6 m ρ c)
theorem w9_arg7 : W9 m ρ c (Proc.devRef .tc main_arg7) = (m ((c : Thread nD τ).loc main_arg7)) := (W9_of_ne m ρ c main_arg7 (by decide)).trans (w8_arg7 m ρ c)
theorem w9_arg8 : W9 m ρ c (Proc.devRef .tc main_arg8) = (m ((c : Thread nD τ).loc main_arg8)) := (W9_of_ne m ρ c main_arg8 (by decide)).trans (w8_arg8 m ρ c)
theorem w9_arg9 : W9 m ρ c (Proc.devRef .tc main_arg9) = (m ((c : Thread nD τ).loc main_arg9)) := (W9_of_ne m ρ c main_arg9 (by decide)).trans (w8_arg9 m ρ c)

/-- The last stretch leaves the reference's second aggregate. -/
theorem w10_v67 : W10 m ρ c (Proc.devRef .tc main_v67) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) := by
  refine (last_v67 (W9 m ρ c)).trans ?_
  rw [w9_v54 m ρ c, w9_v5 m ρ c, w9_v6 m ρ c, w9_v34 m ρ c]
  exact (Cert.ReferenceIdeal.Chain.v130_eq _ _ _ _ _ _ _ _ _).symm

theorem w10_v68 : W10 m ρ c (Proc.devRef .tc main_v68) = (shapeCast ⟨2, ![1, 128]⟩ (m ((c : Thread nD τ).loc main_arg6)) shapeCasts_S128_S1x128) :=
  (last_v68 (W9 m ρ c)).trans (by rw [w9_arg6 m ρ c])
theorem w10_v69 : W10 m ρ c (Proc.devRef .tc main_v69) = (shapeCast ⟨2, ![1, 1]⟩ (m ((c : Thread nD τ).loc main_arg7)) shapeCasts_S1_S1x1) :=
  (last_v69 (W9 m ρ c)).trans (by rw [w9_arg7 m ρ c])
theorem w10_v70 : W10 m ρ c (Proc.devRef .tc main_v70) = (shapeCast ⟨2, ![1, 128]⟩ (m ((c : Thread nD τ).loc main_arg8)) shapeCasts_S128_S1x128) :=
  (last_v70 (W9 m ρ c)).trans (by rw [w9_arg8 m ρ c])
theorem w10_v71 : W10 m ρ c (Proc.devRef .tc main_v71) = (shapeCast ⟨2, ![1, 128]⟩ (m ((c : Thread nD τ).loc main_arg9)) shapeCasts_S128_S1x128) :=
  (last_v71 (W9 m ρ c)).trans (by rw [w9_arg9 m ρ c])

/-- The fourth region leaves the reference's result. -/
theorem result : W11 m ρ c (Proc.devRef .tc main_v72) = Cert.ReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 5).trans ((region3 (V10 m ρ) c).trans ?_)
  rw [show V10 m ρ c main_v67 = _ from w10_v67 m ρ c, show V10 m ρ c main_v68 = _ from w10_v68 m ρ c,
    show V10 m ρ c main_v69 = _ from w10_v69 m ρ c, show V10 m ρ c main_v70 = _ from w10_v70 m ρ c,
    show V10 m ρ c main_v71 = _ from w10_v71 m ρ c]
  exact (Cert.ReferenceIdeal.RefValue.post2 _ _ _ _ _ _ _ _ _ _ _ _).symm

end Cert.KernelIdeal.Value

end
-- ==== Proof.RefRun.lean ====
/-
  The reference program's run.

  The reference is a straight line of 210 host operations.  Every weakly fair execution terminates with each buffer
  at the fold of the operations' results over the launch contents.  Read at the result buffer, that fold is the last
  stage of the operation-by-operation reading — the composition, in program order, of each operation's function of
  its operands — applied to the launch contents of the ten arguments; read at an argument's buffer, which no
  operation writes, it is the launch contents.  Both readings hold for any contents `V` the line starts from: the
  fold and the composed stages unfold to the same term.
-/
import proofs.«141909_j79422535238248_1_alg».proof.Proof.RefReadP
import Idealize.ShloMosaic.Lib.Tactic

noncomputable section

namespace Cert.ReferenceIdeal.RefRun

open Cert.ReferenceIdeal Cert.ReferenceIdeal.Gen Cert.ReferenceIdeal.ValueP Cert.ReferenceIdeal.Read
open Idealize.ShloMosaic Idealize.ShloMosaic.TcCoe Idealize.SL.Sem Idealize.ShloMosaic.StableHlo Idealize.ShloMosaic.Tactic

variable {F : FTy → Type} [FloatOps F]

/-- The result buffer after the line, from any contents: the last stage at the contents of the arguments. -/
theorem after_result (V : Valuation τ sig (Elt F)) :
    after (ops (F := F)) V (Proc.devRef .tc main_v163)
      = val_main_v163 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) := by
  sl_kernel_rfl

/-- No operation writes argument 0. -/
theorem after_arg0 (V : Valuation τ sig (Elt F)) :
    after (ops (F := F)) V (Proc.devRef .tc main_arg0) = V (Proc.devRef .tc main_arg0) := by
  sl_kernel_rfl

/-- No operation writes argument 1. -/
theorem after_arg1 (V : Valuation τ sig (Elt F)) :
    after (ops (F := F)) V (Proc.devRef .tc main_arg1) = V (Proc.devRef .tc main_arg1) := by
  sl_kernel_rfl

/-- No operation writes argument 2. -/
theorem after_arg2 (V : Valuation τ sig (Elt F)) :
    after (ops (F := F)) V (Proc.devRef .tc main_arg2) = V (Proc.devRef .tc main_arg2) := by
  sl_kernel_rfl

/-- No operation writes argument 3. -/
theorem after_arg3 (V : Valuation τ sig (Elt F)) :
    after (ops (F := F)) V (Proc.devRef .tc main_arg3) = V (Proc.devRef .tc main_arg3) := by
  sl_kernel_rfl

/-- No operation writes argument 4. -/
theorem after_arg4 (V : Valuation τ sig (Elt F)) :
    after (ops (F := F)) V (Proc.devRef .tc main_arg4) = V (Proc.devRef .tc main_arg4) := by
  sl_kernel_rfl

/-- No operation writes argument 5. -/
theorem after_arg5 (V : Valuation τ sig (Elt F)) :
    after (ops (F := F)) V (Proc.devRef .tc main_arg5) = V (Proc.devRef .tc main_arg5) := by
  sl_kernel_rfl

/-- No operation writes argument 6. -/
theorem after_arg6 (V : Valuation τ sig (Elt F)) :
    after (ops (F := F)) V (Proc.devRef .tc main_arg6) = V (Proc.devRef .tc main_arg6) := by
  sl_kernel_rfl

/-- No operation writes argument 7. -/
theorem after_arg7 (V : Valuation τ sig (Elt F)) :
    after (ops (F := F)) V (Proc.devRef .tc main_arg7) = V (Proc.devRef .tc main_arg7) := by
  sl_kernel_rfl

/-- No operation writes argument 8. -/
theorem after_arg8 (V : Valuation τ sig (Elt F)) :
    after (ops (F := F)) V (Proc.devRef .tc main_arg8) = V (Proc.devRef .tc main_arg8) := by
  sl_kernel_rfl

/-- No operation writes argument 9. -/
theorem after_arg9 (V : Valuation τ sig (Elt F)) :
    after (ops (F := F)) V (Proc.devRef .tc main_arg9) = V (Proc.devRef .tc main_arg9) := by
  sl_kernel_rfl

set_option maxRecDepth 8192 in
/-- Every weakly fair execution of the reference terminates with its result at the last stage of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v163)
        = val_main_v163 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v163).trans (after_result _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _)⟩)
    (run_seq scopedRefs_eq scopedSems_eq defs main (fun _ => ops) main_eq (fun _ => ops_sub) m ρ)

end Cert.ReferenceIdeal.RefRun

end
-- ==== Proof.lean ====
/-
  Two stacked graph-convolution blocks (a linear map, a gather / scale / scatter-add aggregation over the graph with
  self-loops and symmetric normalisation, a bias, a parametric rectifier and a lane normalisation), as a program of
  four kernels among host operations, against the same blocks written as host operations only.

  At the ideal values both programs compute the same function of the ten arguments.  The two matrix-product kernels
  are the reference's dot_general (narrowing to bf16 is the identity on extended reals, and a row tile's product is the
  rows of the whole product); the two normalisation kernels are the reference's chain of broadcasts, a select, two lane
  sums, two quotients by 128, a reciprocal square root, a product and a sum, row by row; the host operations between
  the kernels are the reference's own, and the graph normalisation the reference computes once per layer is computed
  once.  No law of arithmetic beyond reordering a finite sum is used, so the precondition is not opened.

  The kernel's run is the generated frame certificate's fold over its eleven segments with the result buffer named
  (Proof/KernelRun.lean), read segment by segment (Proof/KernelStretch.lean, Proof/Region0–3.lean,
  Proof/KernelValue.lean); the reference's run is its line of operations read stage by stage (Proof/RefRun.lean,
  Proof/RefDense.lean, Proof/RefPost*.lean, Proof/HostChain.lean); Proof/Spec.lean states the two dense pieces.
-/
import proofs.«141909_j79422535238248_1_alg».proof.Defs
import proofs.«141909_j79422535238248_1_alg».proof.Proof.Gen.Kernel
import proofs.«141909_j79422535238248_1_alg».proof.Proof.Gen.Kernel.Skeleton
import proofs.«141909_j79422535238248_1_alg».proof.Proof.Gen.Kernel.Launch
import proofs.«141909_j79422535238248_1_alg».proof.Proof.Gen.Kernel.Points
import proofs.«141909_j79422535238248_1_alg».proof.Proof.Gen.Kernel.Frame
import proofs.«141909_j79422535238248_1_alg».proof.Proof.Gen.KernelIdeal
import proofs.«141909_j79422535238248_1_alg».proof.Proof.Gen.KernelIdeal.Skeleton
import proofs.«141909_j79422535238248_1_alg».proof.Proof.Gen.KernelIdeal.Launch
import proofs.«141909_j79422535238248_1_alg».proof.Proof.Gen.KernelIdeal.Points
import proofs.«141909_j79422535238248_1_alg».proof.Proof.Gen.KernelIdeal.Frame
import proofs.«141909_j79422535238248_1_alg».proof.Proof.Gen.ReferenceIdeal
import proofs.«141909_j79422535238248_1_alg».proof.Proof.Gen.Pre_finite_inputs
import proofs.«141909_j79422535238248_1_alg».proof.Proof.KernelRun
import proofs.«141909_j79422535238248_1_alg».proof.Proof.KernelValue
import proofs.«141909_j79422535238248_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories agreeing on the arguments, both programs end with the reference's last stage of the arguments in
    their result arrays. -/
theorem algebraic : Cert.algebraic_KernelIdeal_ReferenceIdeal := by
  intro m ρ m' ρ' _ hagree
  refine ⟨fun c => Cert.ReferenceIdeal.Read.val_main_v163 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Value.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
